-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x2048 : Shape := ⟨3, ![8, 4096, 2048]⟩
abbrev S24x2048 : Shape := ⟨2, ![24, 2048]⟩
abbrev S24x24 : Shape := ⟨2, ![24, 24]⟩
abbrev S2048x24 : Shape := ⟨2, ![2048, 24]⟩
abbrev S_ : Shape := ⟨0, ![]⟩

class Facts : Prop where
  bcast_S_S8x4096x2048 : S_.BroadcastsInDim S8x4096x2048 (![] : Fin 0 → Fin S8x4096x2048.rank)
  reducesTo_S8x4096x2048_S_d0_1_2 : S8x4096x2048.ReducesTo [0, 1, 2] S_
  h_S_ : 0 < S_.numel
  bcast_S_S24x2048 : S_.BroadcastsInDim S24x2048 (![] : Fin 0 → Fin S24x2048.rank)
  reducesTo_S24x2048_S_d0_1 : S24x2048.ReducesTo [0, 1] S_
  bcast_S_S24x24 : S_.BroadcastsInDim S24x24 (![] : Fin 0 → Fin S24x24.rank)
  reducesTo_S24x24_S_d0_1 : S24x24.ReducesTo [0, 1] S_
  bcast_S_S2048x24 : S_.BroadcastsInDim S2048x24 (![] : Fin 0 → Fin S2048x24.rank)
  reducesTo_S2048x24_S_d0_1 : S2048x24.ReducesTo [0, 1] S_

variable [Facts]

def fn_part1 {F : FTy → Type} [FloatOps F] (main_arg4 : FVec F S2048x24 .f32) (main_arg5 : FVec F S24x24 .f32) (main_v13 : IVec S_ 1) (main_v16 : IVec S24x24 1) : IVec S_ 1 :=
  let main_c_5 : IVec S_ 1 := constantI S_ 1 1#1
  let main_v17 : IVec S_ 1 := (fun x v => Host.reduce IntOp.andi x v reducesTo_S24x24_S_d0_1 h_S_) main_v16 main_c_5
  let main_v18 : IVec S_ 1 := andi main_v13 main_v17
  let main_v19 : FVec F S2048x24 .f32 := Host.absf main_arg4
  let main_cst_6 : FVec F S_ .f32 := constant S_ .f32 0x7F800000#32
  let main_v20 : FVec F S2048x24 .f32 := broadcastInDim S2048x24 ![] bcast_S_S2048x24 main_cst_6
  let main_v21 : IVec S2048x24 1 := cmpf .olt main_v19 main_v20
  let main_c_7 : IVec S_ 1 := constantI S_ 1 1#1
  let main_v22 : IVec S_ 1 := (fun x v => Host.reduce IntOp.andi x v reducesTo_S2048x24_S_d0_1 h_S_) main_v21 main_c_7
  let main_v23 : IVec S_ 1 := andi main_v18 main_v22
  let main_v24 : FVec F S24x24 .f32 := Host.absf main_arg5
  let main_cst_8 : FVec F S_ .f32 := constant S_ .f32 0x7F800000#32
  let main_v25 : FVec F S24x24 .f32 := broadcastInDim S24x24 ![] bcast_S_S24x24 main_cst_8
  let main_v26 : IVec S24x24 1 := cmpf .olt main_v24 main_v25
  let main_c_9 : IVec S_ 1 := constantI S_ 1 1#1
  let main_v27 : IVec S_ 1 := (fun x v => Host.reduce IntOp.andi x v reducesTo_S24x24_S_d0_1 h_S_) main_v26 main_c_9
  let main_v28 : IVec S_ 1 := andi main_v23 main_v27
  main_v28

def fn {F : FTy → Type} [FloatOps F] (main_arg0 : FVec F S8x4096x2048 .f32) (main_arg1 : FVec F S24x2048 .f32) (main_arg2 : FVec F S24x2048 .f32) (main_arg3 : FVec F S24x24 .f32) (main_arg4 : FVec F S2048x24 .f32) (main_arg5 : FVec F S24x24 .f32) : IVec S_ 1 :=
  let main_v0 : FVec F S8x4096x2048 .f32 := Host.absf main_arg0
  let main_cst : FVec F S_ .f32 := constant S_ .f32 0x7F800000#32
  let main_v1 : FVec F S8x4096x2048 .f32 := broadcastInDim S8x4096x2048 ![] bcast_S_S8x4096x2048 main_cst
  let main_v2 : IVec S8x4096x2048 1 := cmpf .olt main_v0 main_v1
  let main_c : IVec S_ 1 := constantI S_ 1 1#1
  let main_v3 : IVec S_ 1 := (fun x v => Host.reduce IntOp.andi x v reducesTo_S8x4096x2048_S_d0_1_2 h_S_) main_v2 main_c
  let main_v4 : FVec F S24x2048 .f32 := Host.absf main_arg1
  let main_cst_0 : FVec F S_ .f32 := constant S_ .f32 0x7F800000#32
  let main_v5 : FVec F S24x2048 .f32 := broadcastInDim S24x2048 ![] bcast_S_S24x2048 main_cst_0
  let main_v6 : IVec S24x2048 1 := cmpf .olt main_v4 main_v5
  let main_c_1 : IVec S_ 1 := constantI S_ 1 1#1
  let main_v7 : IVec S_ 1 := (fun x v => Host.reduce IntOp.andi x v reducesTo_S24x2048_S_d0_1 h_S_) main_v6 main_c_1
  let main_v8 : IVec S_ 1 := andi main_v3 main_v7
  let main_v9 : FVec F S24x2048 .f32 := Host.absf main_arg2
  let main_cst_2 : FVec F S_ .f32 := constant S_ .f32 0x7F800000#32
  let main_v10 : FVec F S24x2048 .f32 := broadcastInDim S24x2048 ![] bcast_S_S24x2048 main_cst_2
  let main_v11 : IVec S24x2048 1 := cmpf .olt main_v9 main_v10
  let main_c_3 : IVec S_ 1 := constantI S_ 1 1#1
  let main_v12 : IVec S_ 1 := (fun x v => Host.reduce IntOp.andi x v reducesTo_S24x2048_S_d0_1 h_S_) main_v11 main_c_3
  let main_v13 : IVec S_ 1 := andi main_v8 main_v12
  let main_v14 : FVec F S24x24 .f32 := Host.absf main_arg3
  let main_cst_4 : FVec F S_ .f32 := constant S_ .f32 0x7F800000#32
  let main_v15 : FVec F S24x24 .f32 := broadcastInDim S24x24 ![] bcast_S_S24x24 main_cst_4
  let main_v16 : IVec S24x24 1 := cmpf .olt main_v14 main_v15
  fn_part1 (F := F) main_arg4 main_arg5 main_v13 main_v16
-- ==== Kernel.lean ====
abbrev S8x4096x2048 : Shape := ⟨3, ![8, 4096, 2048]⟩
abbrev S24x2048 : Shape := ⟨2, ![24, 2048]⟩
abbrev S24x24 : Shape := ⟨2, ![24, 24]⟩
abbrev S2048x24 : Shape := ⟨2, ![2048, 24]⟩
abbrev S48x2048 : Shape := ⟨2, ![48, 2048]⟩
abbrev S8x24x4096 : Shape := ⟨3, ![8, 24, 4096]⟩
abbrev S8x1x24 : Shape := ⟨3, ![8, 1, 24]⟩
abbrev S1x1024x2048 : Shape := ⟨3, ![1, 1024, 2048]⟩
abbrev S1x24x1024 : Shape := ⟨3, ![1, 24, 1024]⟩
abbrev S1x1x24 : Shape := ⟨3, ![1, 1, 24]⟩
abbrev S1024x2048 : Shape := ⟨2, ![1024, 2048]⟩
abbrev S48x1024 : Shape := ⟨2, ![48, 1024]⟩
abbrev S24x1024 : Shape := ⟨2, ![24, 1024]⟩
abbrev S24 : Shape := ⟨1, ![24]⟩
abbrev S8x24 : Shape := ⟨2, ![8, 24]⟩
abbrev S_ : Shape := ⟨0, ![]⟩

abbrev nBuf : Space → Nat
  | .hbm => 34
  | .vmem => 14
  | .smem => 0
  | _ => 0

abbrev bufTy : (tb : Table) → Fin (tcTables nBuf tb) → BufTy
  | .hbm, ⟨0, _⟩ => ⟨S8x4096x2048, .f32⟩
  | .hbm, ⟨1, _⟩ => ⟨S24x2048, .f32⟩
  | .hbm, ⟨2, _⟩ => ⟨S24x2048, .f32⟩
  | .hbm, ⟨3, _⟩ => ⟨S24x24, .f32⟩
  | .hbm, ⟨4, _⟩ => ⟨S2048x24, .f32⟩
  | .hbm, ⟨5, _⟩ => ⟨S24x24, .f32⟩
  | .hbm, ⟨6, _⟩ => ⟨S48x2048, .f32⟩
  | .hbm, ⟨7, _⟩ => ⟨S8x24x4096, .bf16⟩
  | .hbm, ⟨8, _⟩ => ⟨S8x1x24, .f32⟩
  | .hbm, ⟨9, _⟩ => ⟨S8x1x24, .f32⟩
  | .hbm, ⟨10, _⟩ => ⟨S8x24, .f32⟩
  | .hbm, ⟨11, _⟩ => ⟨S_, .f32⟩
  | .hbm, ⟨12, _⟩ => ⟨S8x24, .f32⟩
  | .hbm, ⟨13, _⟩ => ⟨S8x24, .f32⟩
  | .hbm, ⟨14, _⟩ => ⟨S8x24, .f32⟩
  | .hbm, ⟨15, _⟩ => ⟨S_, .f32⟩
  | .hbm, ⟨16, _⟩ => ⟨S8x24, .f32⟩
  | .hbm, ⟨17, _⟩ => ⟨S8x24, .f32⟩
  | .hbm, ⟨18, _⟩ => ⟨S24x24, .f32⟩
  | .hbm, ⟨19, _⟩ => ⟨S_, .f32⟩
  | .hbm, ⟨20, _⟩ => ⟨S24x24, .f32⟩
  | .hbm, ⟨21, _⟩ => ⟨S24x24, .f32⟩
  | .hbm, ⟨22, _⟩ => ⟨S_, .f32⟩
  | .hbm, ⟨23, _⟩ => ⟨S24x24, .f32⟩
  | .hbm, ⟨24, _⟩ => ⟨S24x24, .f32⟩
  | .hbm, ⟨25, _⟩ => ⟨S_, .f32⟩
  | .hbm, ⟨26, _⟩ => ⟨S24x24, .f32⟩
  | .hbm, ⟨27, _⟩ => ⟨S24x24, .f32⟩
  | .hbm, ⟨28, _⟩ => ⟨S24x24, .f32⟩
  | .hbm, ⟨29, _⟩ => ⟨S24x24, .f32⟩
  | .hbm, ⟨30, _⟩ => ⟨S24x2048, .f32⟩
  | .hbm, ⟨31, _⟩ => ⟨S24x2048, .f32⟩
  | .hbm, ⟨32, _⟩ => ⟨S8x24, .f32⟩
  | .hbm, ⟨33, _⟩ => ⟨S8x4096x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S48x2048, .f32⟩
  | .local _ .vmem, ⟨3, _⟩ => ⟨S1x24x1024, .bf16⟩
  | .local _ .vmem, ⟨4, _⟩ => ⟨S1x24x1024, .bf16⟩
  | .local _ .vmem, ⟨5, _⟩ => ⟨S1x1x24, .f32⟩
  | .local _ .vmem, ⟨6, _⟩ => ⟨S1x1x24, .f32⟩
  | .local _ .vmem, ⟨7, _⟩ => ⟨S1x1x24, .f32⟩
  | .local _ .vmem, ⟨8, _⟩ => ⟨S1x1x24, .f32⟩
  | .local _ .vmem, ⟨9, _⟩ => ⟨S1x24x1024, .bf16⟩
  | .local _ .vmem, ⟨10, _⟩ => ⟨S1x24x1024, .bf16⟩
  | .local _ .vmem, ⟨11, _⟩ => ⟨S24x2048, .f32⟩
  | .local _ .vmem, ⟨12, _⟩ => ⟨S1x1024x2048, .f32⟩
  | .local _ .vmem, ⟨13, _⟩ => ⟨S1x1024x2048, .f32⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev main_v1_2 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_cst_3 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg2_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem2_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S48x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x24x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x24 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x24 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x24x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S24x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1x1024x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

class Facts₀ : Prop where
  concatenates_S24x2048_S24x2048_S48x2048_d0 : Shape.Concatenates [S24x2048, S24x2048] S48x2048 0
  inb_S1x1x24_S1x1x24_0_0_0 : ∀ a, (![0, 0, 0] : Fin 3 → Nat) a + S1x1x24.size a ≤ S1x1x24.size a
  h_S1x1x24 : 0 < S1x1x24.numel
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  bitsLt_bf16_f32 : FTy.bits .bf16 < FTy.bits .f32
  inb_S48x2048_S48x2048_0_0 : ∀ a, (![0, 0] : Fin 2 → Nat) a + S48x2048.size a ≤ S48x2048.size a
  h_S48x2048 : 0 < S48x2048.numel
  shapeCasts_S48x2048_S48x2048 : S48x2048.ShapeCasts S48x2048
  slices_S48x1024_o0_0_S24x1024 : S48x1024.Slices ![0, 0] S24x1024
  slices_S48x1024_o24_0_S24x1024 : S48x1024.Slices ![24, 0] S24x1024
  inb_S1x24x1024_S1x24x1024_0_0_0 : ∀ a, (![0, 0, 0] : Fin 3 → Nat) a + S1x24x1024.size a ≤ S1x24x1024.size a
  h_S1x24x1024 : 0 < S1x24x1024.numel
  shapeCasts_S1x24x1024_S24x1024 : S1x24x1024.ShapeCasts S24x1024
  shapeCasts_S24x1024_S1x24x1024 : S24x1024.ShapeCasts S1x24x1024
  packedbf16_S1x24x1024_S1x24x1024_0_0_0 : (Rect.unit (s := S1x24x1024) ![0, 0, 0] S1x24x1024.size inb_S1x24x1024_S1x24x1024_0_0_0).PackedRows (EltTy.packing .bf16)
  shapeCasts_S1x1x24_S1x1x24 : S1x1x24.ShapeCasts S1x1x24
  reduces_S24x1024_S24 : S24x1024.Reduces [1] S24
  shapeCasts_S24_S1x1x24 : S24.ShapeCasts S1x1x24
  shapeCasts_S8x1x24_S8x24 : S8x1x24.ShapeCasts S8x24
  bcast_S_S8x24 : S_.BroadcastsInDim S8x24 (![] : Fin 0 → Fin S8x24.rank)
  bcast_S_S24x24 : S_.BroadcastsInDim S24x24 (![] : Fin 0 → Fin S24x24.rank)
  transposes_S2048x24_S24x2048_1_0 : S2048x24.Transposes [1, 0] S24x2048
  inb_S24x2048_S24x2048_0_0 : ∀ a, (![0, 0] : Fin 2 → Nat) a + S24x2048.size a ≤ S24x2048.size a
  h_S24x2048 : 0 < S24x2048.numel
  shapeCasts_S24x2048_S24x2048 : S24x2048.ShapeCasts S24x2048
  shapeCasts_S1024x2048_S1x1024x2048 : S1024x2048.ShapeCasts S1x1024x2048
  dot_S48x2048_S1024x2048_S48x1024_1_1_0_0_n_n_wf : DotDims.WF S48x2048 S1024x2048 S48x1024 [1] [1] [0] [0] [] []
  dot_S8x24_S8x24_S24x24_0_0_1_1_n_n_wf : DotDims.WF S8x24 S8x24 S24x24 [0] [0] [1] [1] [] []
  dot_S24x24_S24x2048_S24x2048_1_0_0_1_n_n_wf : DotDims.WF S24x24 S24x2048 S24x2048 [1] [0] [0] [1] [] []
  dot_S8x24_S24x24_S8x24_1_0_0_1_n_n_wf : DotDims.WF S8x24 S24x24 S8x24 [1] [0] [0] [1] [] []
  dot_S24x1024_S24x2048_S1024x2048_0_0_1_1_n_n_wf : DotDims.WF S24x1024 S24x2048 S1024x2048 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x2048.size a ≤ S8x4096x2048.size a
  hwx0_0 : ∀ i : grid0.Coords, EltTy.bits .f32 = 32 ∨ (Rect.block (s := S8x4096x2048) S1x1024x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S48x2048.size a ≤ S48x2048.size a
  hwx0_1 : ∀ i : grid0.Coords, EltTy.bits .f32 = 32 ∨ (Rect.block (s := S48x2048) S48x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x24x1024.size a ≤ S8x24x4096.size a
  hwx0_2 : ∀ i : grid0.Coords, EltTy.bits .bf16 = 32 ∨ (Rect.block (s := S8x24x4096) S1x24x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x24.size a ≤ S8x1x24.size a
  hwx0_3 : ∀ i : grid0.Coords, EltTy.bits .f32 = 32 ∨ (Rect.block (s := S8x1x24) S1x1x24.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x24.size a ≤ S8x1x24.size a
  hwx0_4 : ∀ i : grid0.Coords, EltTy.bits .f32 = 32 ∨ (Rect.block (s := S8x1x24) S1x1x24.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x24x1024.size a ≤ S8x24x4096.size a
  hwx1_0 : ∀ i : grid1.Coords, EltTy.bits .bf16 = 32 ∨ (Rect.block (s := S8x24x4096) S1x24x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S24x2048.size a ≤ S24x2048.size a
  hwx1_1 : ∀ i : grid1.Coords, EltTy.bits .f32 = 32 ∨ (Rect.block (s := S24x2048) S24x2048.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x2048.size a ≤ S8x4096x2048.size a
  hwx1_2 : ∀ i : grid1.Coords, EltTy.bits .f32 = 32 ∨ (Rect.block (s := S8x4096x2048) S1x1024x2048.size (cc1_transform_2 i) (hinb1_2 i)).WholeWords (EltTy.packing .f32)

variable [Facts₀]

def dot_S48x2048_S1024x2048_S48x1024_1_1_0_0_n_n : DotDims S48x2048 S1024x2048 S48x1024 where
  lhsContracting := [1]
  rhsContracting := [1]
  lhsNonContracting := [0]
  rhsNonContracting := [0]
  lhsBatch := []
  rhsBatch := []
  wf := dot_S48x2048_S1024x2048_S48x1024_1_1_0_0_n_n_wf
def dot_S8x24_S8x24_S24x24_0_0_1_1_n_n : DotDims S8x24 S8x24 S24x24 where
  lhsContracting := [0]
  rhsContracting := [0]
  lhsNonContracting := [1]
  rhsNonContracting := [1]
  lhsBatch := []
  rhsBatch := []
  wf := dot_S8x24_S8x24_S24x24_0_0_1_1_n_n_wf
def dot_S24x24_S24x2048_S24x2048_1_0_0_1_n_n : DotDims S24x24 S24x2048 S24x2048 where
  lhsContracting := [1]
  rhsContracting := [0]
  lhsNonContracting := [0]
  rhsNonContracting := [1]
  lhsBatch := []
  rhsBatch := []
  wf := dot_S24x24_S24x2048_S24x2048_1_0_0_1_n_n_wf
def dot_S8x24_S24x24_S8x24_1_0_0_1_n_n : DotDims S8x24 S24x24 S8x24 where
  lhsContracting := [1]
  rhsContracting := [0]
  lhsNonContracting := [0]
  rhsNonContracting := [1]
  lhsBatch := []
  rhsBatch := []
  wf := dot_S8x24_S24x24_S8x24_1_0_0_1_n_n_wf
def dot_S24x1024_S24x2048_S1024x2048_0_0_1_1_n_n : DotDims S24x1024 S24x2048 S1024x2048 where
  lhsContracting := [0]
  rhsContracting := [0]
  lhsNonContracting := [1]
  rhsNonContracting := [1]
  lhsBatch := []
  rhsBatch := []
  wf := dot_S24x1024_S24x2048_S1024x2048_0_0_1_1_n_n_wf

abbrev win0_0 : Pipeline.Window sig grid0 :=
  Pipeline.Window.ofSpec (Memref.whole main_arg0) S1x1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S48x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x24x1024.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x24.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1_2) S1x1x24.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1_0) S1x24x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v18) S24x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x1024x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S8x4096x2048 : Shape := ⟨3, ![8, 4096, 2048]⟩
abbrev S24x2048 : Shape := ⟨2, ![24, 2048]⟩
abbrev S24x24 : Shape := ⟨2, ![24, 24]⟩
abbrev S2048x24 : Shape := ⟨2, ![2048, 24]⟩
abbrev S8x4096x24 : Shape := ⟨3, ![8, 4096, 24]⟩
abbrev S_ : Shape := ⟨0, ![]⟩
abbrev S8x24 : Shape := ⟨2, ![8, 24]⟩

abbrev nBuf : Space → Nat
  | .hbm => 37
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S24x2048, .f32⟩
  | .hbm, ⟨2, _⟩ => ⟨S24x2048, .f32⟩
  | .hbm, ⟨3, _⟩ => ⟨S24x24, .f32⟩
  | .hbm, ⟨4, _⟩ => ⟨S2048x24, .f32⟩
  | .hbm, ⟨5, _⟩ => ⟨S24x24, .f32⟩
  | .hbm, ⟨6, _⟩ => ⟨S8x4096x24, .f32⟩
  | .hbm, ⟨7, _⟩ => ⟨S8x4096x24, .f32⟩
  | .hbm, ⟨8, _⟩ => ⟨S_, .f32⟩
  | .hbm, ⟨9, _⟩ => ⟨S8x24, .f32⟩
  | .hbm, ⟨10, _⟩ => ⟨S_, .f32⟩
  | .hbm, ⟨11, _⟩ => ⟨S8x24, .f32⟩
  | .hbm, ⟨12, _⟩ => ⟨S8x24, .f32⟩
  | .hbm, ⟨13, _⟩ => ⟨S_, .f32⟩
  | .hbm, ⟨14, _⟩ => ⟨S8x24, .f32⟩
  | .hbm, ⟨15, _⟩ => ⟨S_, .f32⟩
  | .hbm, ⟨16, _⟩ => ⟨S8x24, .f32⟩
  | .hbm, ⟨17, _⟩ => ⟨S8x24, .f32⟩
  | .hbm, ⟨18, _⟩ => ⟨S24x24, .f32⟩
  | .hbm, ⟨19, _⟩ => ⟨S_, .f32⟩
  | .hbm, ⟨20, _⟩ => ⟨S24x24, .f32⟩
  | .hbm, ⟨21, _⟩ => ⟨S24x24, .f32⟩
  | .hbm, ⟨22, _⟩ => ⟨S_, .f32⟩
  | .hbm, ⟨23, _⟩ => ⟨S24x24, .f32⟩
  | .hbm, ⟨24, _⟩ => ⟨S24x24, .f32⟩
  | .hbm, ⟨25, _⟩ => ⟨S_, .f32⟩
  | .hbm, ⟨26, _⟩ => ⟨S24x24, .f32⟩
  | .hbm, ⟨27, _⟩ => ⟨S24x24, .f32⟩
  | .hbm, ⟨28, _⟩ => ⟨S24x24, .f32⟩
  | .hbm, ⟨29, _⟩ => ⟨S24x24, .f32⟩
  | .hbm, ⟨30, _⟩ => ⟨S8x4096x24, .f32⟩
  | .hbm, ⟨31, _⟩ => ⟨S_, .f32⟩
  | .hbm, ⟨32, _⟩ => ⟨S8x24, .f32⟩
  | .hbm, ⟨33, _⟩ => ⟨S_, .f32⟩
  | .hbm, ⟨34, _⟩ => ⟨S8x24, .f32⟩
  | .hbm, ⟨35, _⟩ => ⟨S8x24, .f32⟩
  | .hbm, ⟨36, _⟩ => ⟨S8x4096x2048, .f32⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_3 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩

abbrev nD : Nat := 1
abbrev τ : Topo := Topo.v7x

variable {F : FTy → Type} [FloatOps F]

class Facts₀ : Prop where
  reducesTo_S8x4096x24_S8x24_d1 : S8x4096x24.ReducesTo [1] S8x24
  h_S_ : 0 < S_.numel
  bcast_S_S8x24 : S_.BroadcastsInDim S8x24 (![] : Fin 0 → Fin S8x24.rank)
  bcast_S_S24x24 : S_.BroadcastsInDim S24x24 (![] : Fin 0 → Fin S24x24.rank)
  dot_S8x4096x2048_S24x2048_S8x4096x24_2_1_01_0_n_n_wf : DotDims.WF S8x4096x2048 S24x2048 S8x4096x24 [2] [1] [0, 1] [0] [] []
  dot_S8x24_S8x24_S24x24_0_0_1_1_n_n_wf : DotDims.WF S8x24 S8x24 S24x24 [0] [0] [1] [1] [] []
  dot_S8x4096x24_S24x24_S8x4096x24_2_0_01_1_n_n_wf : DotDims.WF S8x4096x24 S24x24 S8x4096x24 [2] [0] [0, 1] [1] [] []
  dot_S8x4096x24_S2048x24_S8x4096x2048_2_1_01_0_n_n_wf : DotDims.WF S8x4096x24 S2048x24 S8x4096x2048 [2] [1] [0, 1] [0] [] []

variable [Facts₀]

def dot_S8x4096x2048_S24x2048_S8x4096x24_2_1_01_0_n_n : DotDims S8x4096x2048 S24x2048 S8x4096x24 where
  lhsContracting := [2]
  rhsContracting := [1]
  lhsNonContracting := [0, 1]
  rhsNonContracting := [0]
  lhsBatch := []
  rhsBatch := []
  wf := dot_S8x4096x2048_S24x2048_S8x4096x24_2_1_01_0_n_n_wf
def dot_S8x24_S8x24_S24x24_0_0_1_1_n_n : DotDims S8x24 S8x24 S24x24 where
  lhsContracting := [0]
  rhsContracting := [0]
  lhsNonContracting := [1]
  rhsNonContracting := [1]
  lhsBatch := []
  rhsBatch := []
  wf := dot_S8x24_S8x24_S24x24_0_0_1_1_n_n_wf
def dot_S8x4096x24_S24x24_S8x4096x24_2_0_01_1_n_n : DotDims S8x4096x24 S24x24 S8x4096x24 where
  lhsContracting := [2]
  rhsContracting := [0]
  lhsNonContracting := [0, 1]
  rhsNonContracting := [1]
  lhsBatch := []
  rhsBatch := []
  wf := dot_S8x4096x24_S24x24_S8x4096x24_2_0_01_1_n_n_wf
def dot_S8x4096x24_S2048x24_S8x4096x2048_2_1_01_0_n_n : DotDims S8x4096x24 S2048x24 S8x4096x2048 where
  lhsContracting := [2]
  rhsContracting := [1]
  lhsNonContracting := [0, 1]
  rhsNonContracting := [0]
  lhsBatch := []
  rhsBatch := []
  wf := dot_S8x4096x24_S2048x24_S8x4096x2048_2_1_01_0_n_n_wf

class Facts : Prop extends Facts₀ where

variable [Facts]
-- ==== Proof.KernelRun.lean ====
/-
  The kernel program's run with its two results named.

  The program is four stretches: the stacking of the projection matrices, the first launch, the host arithmetic
  between the launches, the second launch.  The buffers' contents at the end are the fold of the four stretches from
  the launch memory; the modulation and the state are read off that fold, the six arguments are as launched.
-/
import proofs.«113000_j17282948399130_2_alg».proof.Proof.Gen.KernelIdeal.Frame

set_option maxRecDepth 16384

noncomputable section

namespace Cert.KernelIdeal.Named

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates without a fault; at the end the modulation and the state hold what the fold
    of the four stretches leaves there, and the arguments are unchanged. -/
theorem run_named : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_v19) = W4 m ρ c (Proc.devRef .tc main_v19)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20 (by decide)), h c _ (mem_uc main_v19 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.Named

end
-- ==== Proof.LibMatmulRows.lean ====
/-
  A general fact about a matrix product at the ideal values.

  A kernel's matrix product whose dimension numbers contract the LAST axis of both operands (an [m, k] array against
  an [n, k] array: rows against rows, no batch axis), accumulated into the zero splat, read at entry (a, b), is the
  inner product of row `a` of the left factor with row `b` of the right one: `∑ c, A a c · B b c`.
-/
import Idealize.ShloMosaic.Lib.ValueIdx
import Idealize.ShloMosaic.PureOps.Ideal.Laws

noncomputable section

open scoped BigOperators

namespace Cert.LibMatmulRows

open Idealize.ShloMosaic Idealize.ShloMosaic.ValueIdx

/-- A product contracting the last axis of both operands, accumulated into the zero splat, read at an entry: the inner
    product of a row of the left factor with a row of the right one. -/
theorem matmul_rows_zero_apply {m k n : Nat} {φ₁ φ₂ : FTy} (prec : Option ContractPrecision)
    (A : FVec Ideal ⟨2, ![m, k]⟩ φ₁) (B : FVec Ideal ⟨2, ![n, k]⟩ φ₂) (a : Fin m) (b : Fin n) :
    matmul (DotDims.transposedRhs m k n) prec A B (constant (F := Ideal) ⟨2, ![m, n]⟩ .f32 0x00000000#32) (ix2 a b)
      = ∑ c : Fin k, A (ix2 a c) * B (ix2 b c) := by
  show FloatOps.matmul (DotDims.transposedRhs m k n) prec A B _ (ix2 a b) = _
  rw [Ideal.matmul_constant_zero_apply, ← Equiv.sum_comp (contrEquiv1 (DotDims.transposedRhs m k n) k rfl rfl).symm]
  refine Finset.sum_congr rfl fun c _ => ?_
  have hc := contrEquiv1_symm_val (DotDims.transposedRhs m k n) k rfl rfl c
  have el : (DotDims.transposedRhs m k n).lhsIdx (ix2 a b) ((contrEquiv1 (DotDims.transposedRhs m k n) k rfl rfl).symm c) = ix2 a c := by
    funext ax; apply Fin.ext
    match ax with
    | ⟨0, _⟩ => simp [DotDims.lhsIdx, DotDims.transposedRhs] <;> rfl
    | ⟨1, _⟩ => exact ((DotDims.transposedRhs m k n).lhsIdx_val_of_single (cl := (1 : Fin 2)) rfl _ _).trans hc
  have er : (DotDims.transposedRhs m k n).rhsIdx (ix2 a b) ((contrEquiv1 (DotDims.transposedRhs m k n) k rfl rfl).symm c) = ix2 b c := by
    funext ax; apply Fin.ext
    match ax with
    | ⟨0, _⟩ => simp [DotDims.rhsIdx, DotDims.transposedRhs] <;> rfl
    | ⟨1, _⟩ => exact ((DotDims.transposedRhs m k n).rhsIdx_val_of_single (cr := (1 : Fin 2)) rfl _ _).trans hc
  rw [el, er]

end Cert.LibMatmulRows

end
-- ==== Proof.LibKeepdims.lean ====
/-
  Two layout readings a row reduction with `keepdims` needs: a vector of `a` entries viewed as a column `[a, 1]`, and that
  column repeated along `b` columns. Each reads, at an index given by its coordinates, one entry of the operand.
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`:
    the row-major position of `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.LibRows.lean ====
/-
  General readings of matrix operations at an entry given by its row and column.

  * Two matrices with the same rows laid side by side (a concatenation along the columns): a column below the first
    piece's width reads the first piece at that column, a column from that width on reads the second piece at the
    column less the width.
  * A reduction of a matrix along its columns, read at a row, at the ideal values: with `max` it is the fold of `max`
    over the row's entries from the starting word's value; with `add` it is the plain sum of the row's entries.
  * A vector of one entry per row, viewed as a column and repeated along the columns, reads the row's entry.
-/
import proofs.«113000_j17282948399130_2_alg».proof.Proof.LibKeepdims
import Idealize.ShloMosaic.Lib.Pipeline.Value
import Idealize.ShloMosaic.Lib.ValueIdx
import Idealize.ShloMosaic.PureOps.Ideal.Laws

noncomputable section

open scoped BigOperators

namespace Cert.LibRows

open Idealize.ShloMosaic Idealize.ShloMosaic.ValueIdx

section Concatenate
variable {α : Type}

/-- Side by side, a column inside the first piece reads the first piece there. -/
theorem concat_cols_left {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : j.val < a) :
    concatenate ⟨2, ![n, c]⟩ 1 [⟨⟨2, ![n, a]⟩, x₁⟩, ⟨⟨2, ![n, b]⟩, x₂⟩] h (ix2 r j) = x₁ (ix2 r ⟨j.val, hj⟩) :=
  concatenate_pair_apply_left (1 : Fin 2) x₁ x₂ h (ix2 r j) rfl (ix2 r ⟨j.val, hj⟩) fun ax => by
    match ax with
    | ⟨0, _⟩ => rfl
    | ⟨1, _⟩ => rfl

/-- Side by side, a column past the first piece reads the second piece at the column less the first piece's width. -/
theorem concat_cols_right {n a b c : Nat} (x₁ : (⟨2, ![n, a]⟩ : Shape).Idx → α) (x₂ : (⟨2, ![n, b]⟩ : Shape).Idx → α)
    (h : Shape.Concatenates [⟨2, ![n, a]⟩, ⟨2, ![n, b]⟩] ⟨2, ![n, c]⟩ 1) (r : Fin n) (j : Fin c) (hj : a ≤ j.val)
    (hb : j.val - a < b) :
    concatenate ⟨2, ![n, c]⟩ 1 [⟨⟨2, ![n, a]⟩, x₁⟩, ⟨⟨2, ![n, b]⟩, x₂⟩] h (ix2 r j) = x₂ (ix2 r ⟨j.val - a, hb⟩) :=
  concatenate_pair_apply_right (1 : Fin 2) x₁ x₂ h (ix2 r j) rfl rfl (ix2 r ⟨j.val - a, hb⟩)
    (fun ax hne => by
      match ax with
      | ⟨0, _⟩ => rfl
      | ⟨1, _⟩ => exact absurd rfl hne)
    (by show j.val - a + a = j.val; omega)

end Concatenate

section Lanes
variable {φ : FTy}

/-- The source index over row `r` with column `k` is the entry `(r, k)`. -/
theorem lift_row {n m : Nat} (h : (⟨2, ![n, m]⟩ : Shape).Reduces [1] ⟨1, ![n]⟩) (r : Fin n) (k : Fin m) :
    h.lift (ix1 r) k = ix2 r k := by
  funext ax
  match ax with
  | ⟨0, _⟩ => exact Fin.ext rfl
  | ⟨1, _⟩ => exact Fin.ext rfl

/-- A `max` reduction along the columns, at a row: the fold of `max` over the row from the starting word's value. -/
theorem lane_max_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.maximumf.neutral φ hφ)
    (r : Fin n) :
    multiReduction .maximumf [1] ⟨1, ![n]⟩ X acc h hφ hacc (ix1 r)
      = (Finset.univ : Finset (Fin m)).fold max (Ideal.ofBits φ acc) (fun j => X (ix2 r j)) := by
  refine (Ideal.multiReduction_maximumf_single X acc h hφ hacc (ix1 r)).trans ?_
  exact congrArg (fun f => (Finset.univ : Finset (Fin m)).fold max (Ideal.ofBits φ acc) f)
    (funext fun k => congrArg X (lift_row h r k))

/-- An `add` reduction along the columns, at a row: the plain sum of the row. -/
theorem lane_sum_apply {n m : Nat} (X : FVec Ideal ⟨2, ![n, m]⟩ φ) (acc : BitVec φ.bits)
    (h : (⟨2, ![n, m]⟩ : Shape).Reduces [1] ⟨1, ![n]⟩) (hφ : FKind.Formats φ) (hacc : acc = FKind.add.neutral φ hφ)
    (r : Fin n) :
    multiReduction .add [1] ⟨1, ![n]⟩ X acc h hφ hacc (ix1 r) = ∑ j : Fin m, X (ix2 r j) := by
  refine (Ideal.multiReduction_add_single X acc h hφ hacc (ix1 r)).trans ?_
  exact Finset.sum_congr rfl fun k _ => congrArg X (lift_row h r k)

end Lanes

section Keepdims
variable {α : Type}

/-- One entry per row, viewed as a column and repeated along the columns, reads the row's entry. -/
theorem column_broadcast_apply {n m : Nat} (y : (⟨1, ![n]⟩ : Shape).Idx → α)
    (hc : (⟨1, ![n]⟩ : Shape).ShapeCasts ⟨2, ![n, 1]⟩) (hb : (⟨2, ![n, 1]⟩ : Shape).Broadcasts ⟨2, ![n, m]⟩)
    (r : Fin n) (j : Fin m) :
    broadcastTo ⟨2, ![n, m]⟩ (shapeCast ⟨2, ![n, 1]⟩ y hc) hb (ix2 r j) = y (ix1 r) :=
  (Keepdims.broadcastTo_a1_ab_apply _ hb r j).trans (Keepdims.shapeCast_a_a1_apply y hc r 0)

end Keepdims

end Cert.LibRows

end
-- ==== Proof.Region0Pay.lean ====
/-
  The arithmetic of the first launch's body at one grid point, entry by entry.

  The body multiplies the stacked projection matrices [48, 2048] by the point's block of tokens [1024, 2048],
  contracting the width: entry (a, j) of the product is row `a` of the weights against token `j`.  Rows 0–23 are
  stored as the block of projections; each accumulator gains, for its feature, the sum of its row over the 1024
  tokens (rows 0–23 for the first accumulator, rows 24–47 for the second).  A change of float format is the identity.
-/
import proofs.«113000_j17282948399130_2_alg».proof.Proof.Gen.KernelIdeal.Skeleton
import proofs.«113000_j17282948399130_2_alg».proof.Proof.LibMatmulRows
import proofs.«113000_j17282948399130_2_alg».proof.Proof.LibRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region0

open Cert.KernelIdeal Cert.KernelIdeal.Gen Idealize.ShloMosaic Idealize.ShloMosaic.ValueIdx

variable (x0 : Vec Ideal S1x1024x2048 .f32) (x1 : Vec Ideal S48x2048 .f32)

/-- Entry (a, j) of the product: row `a` of the stacked weights against token `j` of the block. -/
theorem pay3_apply (a : Fin 48) (j : Fin 1024) :
    k0_pay3 (F := Ideal) x0 x1 (ix2 a j) = ∑ d : Fin 2048, x1 (ix2 a d) * x0 (ix3 (0 : Fin 1) j d) := by
  unfold k0_pay3
  show matmul (DotDims.transposedRhs 48 2048 1024) none _ _ _ (ix2 a j) = _
  rw [Cert.LibMatmulRows.matmul_rows_zero_apply]
  refine Finset.sum_congr rfl fun d _ => ?_
  rw [truncf_apply, truncf_apply, shapeCast_self]
  exact congrArg (x1 (ix2 a d) * ·) (shapeCast_1ab_ab_apply x0 _ j d)

/-- The upper half of the product: the first projection's rows. -/
theorem pay4_apply (h : Fin 24) (j : Fin 1024) :
    k0_pay4 (F := Ideal) x0 x1 (ix2 h j) = ∑ d : Fin 2048, x1 (ix2 ⟨h.val, by omega⟩ d) * x0 (ix3 (0 : Fin 1) j d) := by
  unfold k0_pay4
  refine (extractStridedSlice_apply _ _ _ (ix2 h j) (ix2 ⟨h.val, by omega⟩ j) fun ax => ?_).trans (pay3_apply x0 x1 _ j)
  match ax with
  | ⟨0, _⟩ => show h.val = 0 + h.val; omega
  | ⟨1, _⟩ => show j.val = 0 + j.val; omega

/-- The stored block of projections, feature-major. -/
theorem pay5_apply (u : Fin 1) (h : Fin 24) (j : Fin 1024) :
    k0_pay5 (F := Ideal) x0 x1 (ix3 u h j) = ∑ d : Fin 2048, x1 (ix2 ⟨h.val, by omega⟩ d) * x0 (ix3 (0 : Fin 1) j d) := by
  unfold k0_pay5
  refine (shapeCast_ab_1ab_apply _ _ u h j).trans ?_
  exact (truncf_apply (ψ := .bf16) (k0_pay4 (F := Ideal) x0 x1) bitsLt_bf16_f32 (ix2 h j)).trans (pay4_apply x0 x1 h j)

/-- A [24] vector viewed as [1, 1, 24] reads its entry. -/
theorem cast_24_1x1x24 (v : FVec Ideal S24 .f32) (hc : S24.ShapeCasts S1x1x24) (u w : Fin 1) (h : Fin 24) :
    shapeCast S1x1x24 v hc (ix3 u w h) = v (ix1 h) :=
  shapeCast_apply v hc _ _ (by
    rw [Shape.rowMajor_val_one, Shape.rowMajor_val_three]
    have hu : u.val = 0 := by omega
    have hw : w.val = 0 := by omega
    show h.val = (u.val * 1 + w.val) * 24 + h.val
    omega)

/-- The first accumulator after the point: what it held plus the feature's row summed over the block's tokens. -/
theorem pay6_apply (acc : Vec Ideal S1x1x24 .f32) (u w : Fin 1) (h : Fin 24) :
    k0_pay6 (F := Ideal) x0 x1 acc (ix3 u w h)
      = acc (ix3 u w h) + ∑ j : Fin 1024, ∑ d : Fin 2048, x1 (ix2 ⟨h.val, by omega⟩ d) * x0 (ix3 (0 : Fin 1) j d) := by
  unfold k0_pay6
  rw [addf_apply, shapeCast_self, cast_24_1x1x24]
  refine congrArg (acc (ix3 u w h) + ·) ?_
  refine (Cert.LibRows.lane_sum_apply (k0_pay4 (F := Ideal) x0 x1) 0x00000000#32 _ _ _ h).trans ?_
  exact Finset.sum_congr rfl fun j _ => pay4_apply x0 x1 h j

/-- The second accumulator: the same with the lower half of the product. -/
theorem pay7_apply (acc : Vec Ideal S1x1x24 .f32) (u w : Fin 1) (h : Fin 24) :
    k0_pay7 (F := Ideal) x0 x1 acc (ix3 u w h)
      = acc (ix3 u w h) + ∑ j : Fin 1024, ∑ d : Fin 2048, x1 (ix2 ⟨24 + h.val, by omega⟩ d) * x0 (ix3 (0 : Fin 1) j d) := by
  unfold k0_pay7
  rw [addf_apply, shapeCast_self, cast_24_1x1x24]
  refine congrArg (acc (ix3 u w h) + ·) ?_
  refine (Cert.LibRows.lane_sum_apply _ 0x00000000#32 _ _ _ h).trans ?_
  refine Finset.sum_congr rfl fun j _ => ?_
  refine (extractStridedSlice_apply _ _ _ (ix2 h j) (ix2 ⟨24 + h.val, by omega⟩ j) fun ax => ?_).trans (pay3_apply x0 x1 _ j)
  match ax with
  | ⟨0, _⟩ => rfl
  | ⟨1, _⟩ => show j.val = 0 + j.val; omega

/-- The reset value of either accumulator is zero. -/
theorem pay1_apply (i : S1x1x24.Idx) : k0_pay1 (F := Ideal) i = 0 := by
  unfold k0_pay1
  exact Ideal.ofBits_zero_f32

theorem pay2_apply (i : S1x1x24.Idx) : k0_pay2 (F := Ideal) i = 0 := by
  unfold k0_pay2
  exact Ideal.ofBits_zero_f32

end Cert.KernelIdeal.Region0

end
-- ==== Proof.HebbSpec.lean ====
/-
  The Hebbian plasticity layer, entry by entry, over the extended reals.

  Inputs: tokens `x b t d` (batch 8, sequence 4096, width 2048), two projections `w h d` (24 features), a plastic
  matrix and a trace (24 × 24), an output matrix `wout d e`.  A token is projected to 24 features; the features are
  averaged over the sequence; the outer product of the two averages, averaged over the batch, updates the trace; the
  effective weight is the plastic matrix plus the new trace; the projected tokens go through the effective weight
  (the "plastic" activations) and then through the output matrix.

  Two arrangements are written down.  One forms the plastic activations first and multiplies by the output matrix
  last, and averages the plastic activations for the state.  The other sums the projected features in four blocks
  of 1024 tokens, folds the effective weight and the output matrix into one 24 × 2048 matrix, and obtains the state
  from the averaged features directly.
-/
import Idealize.ShloMosaic.PureOps.Ideal
import Idealize.ShloMosaic.Lib.ValueIdx

noncomputable section

open scoped BigOperators

namespace Cert.Hebb

open Idealize.ShloMosaic Idealize.ShloMosaic.ValueIdx

/-- A rank-2 array as a function of its two coordinates. -/
def c2 {α : Type} {n0 n1 : Nat} (X : (⟨2, ![n0, n1]⟩ : Shape).Idx → α) : Fin n0 → Fin n1 → α :=
  fun a b => X (ix2 a b)

/-- A rank-3 array as a function of its three coordinates. -/
def c3 {α : Type} {n0 n1 n2 : Nat} (X : (⟨3, ![n0, n1, n2]⟩ : Shape).Idx → α) : Fin n0 → Fin n1 → Fin n2 → α :=
  fun a b c => X (ix3 a b c)

/-- The divisor 4096 (the sequence length), the divisor 8 (the batch), the decay and the learning rate, as the
    f32 words both programs spell. -/
def Q4 : EReal := Ideal.ofBits .f32 0x45800000#32
def Q8 : EReal := Ideal.ofBits .f32 0x41000000#32
def CD : EReal := Ideal.ofBits .f32 0x3F7FBE77#32
def CL : EReal := Ideal.ofBits .f32 0x3C23D70A#32

/-- Token `1024 k + j` of the sequence: token `j` of block `k`. -/
def tok (k : Fin 4) (j : Fin 1024) : Fin 4096 := ⟨1024 * k.val + j.val, by omega⟩

section Projections
variable (x : Fin 8 → Fin 4096 → Fin 2048 → EReal) (w : Fin 24 → Fin 2048 → EReal)

/-- Feature `h` of token `(b, t)`: the token's row against row `h` of the weight. -/
def proj (b : Fin 8) (t : Fin 4096) (h : Fin 24) : EReal := ∑ d, x b t d * w h d

/-- The same feature with the weight written first, laid out feature-major. -/
def projT (b : Fin 8) (h : Fin 24) (t : Fin 4096) : EReal := ∑ d, w h d * x b t d

/-- What one block of 1024 tokens adds to the running sum of feature `h`. -/
def blockSum (b : Fin 8) (k : Fin 4) (h : Fin 24) : EReal := ∑ j : Fin 1024, projT x w b h (tok k j)

/-- The running sum after the four blocks, from zero, in block order. -/
def sumK (b : Fin 8) (h : Fin 24) : EReal :=
  (((0 + blockSum x w b 0 h) + blockSum x w b 1 h) + blockSum x w b 2 h) + blockSum x w b 3 h

/-- The sum over the whole sequence, from zero. -/
def sumR (b : Fin 8) (h : Fin 24) : EReal := 0 + ∑ t, proj x w b t h

end Projections

/-- A sum over the sequence divided by the sequence length. -/
def meanOf (q4 : EReal) (S : Fin 8 → Fin 24 → EReal) (b : Fin 8) (h : Fin 24) : EReal := Ideal.div (S b h) q4

/-- The effective weight: the plastic matrix plus the decayed trace plus the learning rate times the batch average of
    the outer products of the two feature means. -/
def effW (wpl tr : Fin 24 → Fin 24 → EReal) (q8 cd cl : EReal) (P Q : Fin 8 → Fin 24 → EReal) (i j : Fin 24) : EReal :=
  wpl i j + (tr i j * cd + Ideal.div (∑ b, P b i * Q b j) q8 * cl)

/-- The effective weight folded with the output matrix. -/
def combined (E : Fin 24 → Fin 24 → EReal) (wout : Fin 2048 → Fin 24 → EReal) (h : Fin 24) (d : Fin 2048) : EReal :=
  ∑ e, E h e * wout d e

/-- The state from the averaged features. -/
def stateK (P : Fin 8 → Fin 24 → EReal) (E : Fin 24 → Fin 24 → EReal) (b : Fin 8) (h : Fin 24) : EReal :=
  ∑ i, P b i * E i h

/-- The modulation from the feature-major projections and the folded matrix. -/
def modK (pre : Fin 8 → Fin 24 → Fin 4096 → EReal) (C : Fin 24 → Fin 2048 → EReal) (b : Fin 8) (t : Fin 4096)
    (d : Fin 2048) : EReal := ∑ h, pre b h t * C h d

/-- The plastic activations. -/
def plastic (pr : Fin 8 → Fin 4096 → Fin 24 → EReal) (E : Fin 24 → Fin 24 → EReal) (b : Fin 8) (t : Fin 4096)
    (e : Fin 24) : EReal := ∑ h, pr b t h * E h e

/-- The state as the sequence average of the plastic activations. -/
def stateR (q4 : EReal) (pl : Fin 8 → Fin 4096 → Fin 24 → EReal) (b : Fin 8) (e : Fin 24) : EReal :=
  Ideal.div (0 + ∑ t, pl b t e) q4

/-- The modulation from the plastic activations and the output matrix. -/
def modR (pl : Fin 8 → Fin 4096 → Fin 24 → EReal) (wout : Fin 2048 → Fin 24 → EReal) (b : Fin 8) (t : Fin 4096)
    (d : Fin 2048) : EReal := ∑ e, pl b t e * wout d e

section Whole
variable (x : Fin 8 → Fin 4096 → Fin 2048 → EReal) (wa wb : Fin 24 → Fin 2048 → EReal)
  (wpl tr : Fin 24 → Fin 24 → EReal) (wout : Fin 2048 → Fin 24 → EReal)

/-- The effective weight as the blocked arrangement forms it. -/
def effK : Fin 24 → Fin 24 → EReal := effW wpl tr Q8 CD CL (meanOf Q4 (sumK x wa)) (meanOf Q4 (sumK x wb))

/-- The effective weight as the whole-sequence arrangement forms it. -/
def effR : Fin 24 → Fin 24 → EReal := effW wpl tr Q8 CD CL (meanOf Q4 (sumR x wa)) (meanOf Q4 (sumR x wb))

/-- The two results of the blocked arrangement. -/
def modOutK : Fin 8 → Fin 4096 → Fin 2048 → EReal := modK (projT x wa) (combined (effK x wa wb wpl tr) wout)
def stateOutK : Fin 8 → Fin 24 → EReal := stateK (meanOf Q4 (sumK x wa)) (effK x wa wb wpl tr)

/-- The two results of the whole-sequence arrangement. -/
def modOutR : Fin 8 → Fin 4096 → Fin 2048 → EReal := modR (plastic (proj x wa) (effR x wa wb wpl tr)) wout
def stateOutR : Fin 8 → Fin 24 → EReal := stateR Q4 (plastic (proj x wa) (effR x wa wb wpl tr))

end Whole

end Cert.Hebb

end
-- ==== Proof.Region0.lean ====
/-
  The first launch, as functions of the arrays it finds.

  Grid point (b, s) takes tokens 1024 s … 1024 s + 1023 of batch `b` and the stacked projection matrices.  It
  stores the block of first-projection features (feature-major), and adds each feature's sum over the block's
  tokens to the two accumulators of batch `b`, which are zeroed at s = 0 and written back after s = 3.  So after
  the launch the projections hold every feature of every token, and each accumulator holds, per batch and feature,
  the four block sums added in order from zero.
-/
import proofs.«113000_j17282948399130_2_alg».proof.Proof.Gen.KernelIdeal.Frame
import proofs.«113000_j17282948399130_2_alg».proof.Proof.Region0Pay
import proofs.«113000_j17282948399130_2_alg».proof.Proof.HebbSpec
import Idealize.ShloMosaic.Lib.Pipeline.Value
import Idealize.ShloMosaic.Lib.ValueIdx
import Idealize.ShloMosaic.Lib.Tactic

set_option maxRecDepth 16384

noncomputable section

open scoped BigOperators

namespace Cert.KernelIdeal.Region0

open Cert.KernelIdeal Cert.KernelIdeal.Gen Cert.Hebb Idealize.ShloMosaic Idealize.ShloMosaic.TcCoe Idealize.ShloMosaic.Tactic
  Idealize.ShloMosaic.ValueIdx Idealize.SL.Sem
open Idealize.ShloMosaic.Pipeline (Dat)

/-! ## What each case of the body leaves in the three output buffers -/

section Pieces
variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- At a point that continues a batch: the block of projections, and each accumulator's contents plus the block's sums. -/
theorem out_B2 (c : Dev nD) (i : grid0.Coords) (a2 : Memref sig .tc .vmem S1x1024x2048 .f32) (h2 : a2.IsWhole) (a3 : Memref sig .tc .vmem S48x2048 .f32) (h3 : a3.IsWhole) (a4 : Memref sig .tc .vmem S1x24x1024 .bf16) (h4 : a4.IsWhole) (a5 : Memref sig .tc .vmem S1x1x24 .f32) (h5 : a5.IsWhole) (a6 : Memref sig .tc .vmem S1x1x24 .f32) (h6 : a6.IsWhole) (hc : ¬cond0_0 i)
    (x0 : Vec F S1x1024x2048 .f32) (x1 : Vec F S48x2048 .f32) (xo3 xo4 : Vec F S1x1x24 .f32) :
    out0_B_2 c i a2 h2 a3 h3 a4 h4 a5 h5 a6 h6 hc x0 x1 xo3 xo4 = k0_pay5 x0 x1 := by
  unfold out0_B_2
  rw [View.read_writes_eq_canon _ _ _ (cover0_B_2 c i a2 h2 a3 h3 a4 h4 a5 h5 a6 h6 hc x0 x1 xo3 xo4)]
  unfold kernelRun0_B
  dsimp only
  rw [View.canon_unit_zero hz3]
  simp only [View.readAt_eq_ld, h2.read_unread, h3.read_unread, h5.read_unread, h6.read_unread, View.ld_unit_zero (S := S1x1024x2048) hz3, View.ld_unit_zero (S := S48x2048) hz2, View.ld_unit_zero (S := S1x1x24) hz3]

theorem out_B3 (c : Dev nD) (i : grid0.Coords) (a2 : Memref sig .tc .vmem S1x1024x2048 .f32) (h2 : a2.IsWhole) (a3 : Memref sig .tc .vmem S48x2048 .f32) (h3 : a3.IsWhole) (a4 : Memref sig .tc .vmem S1x24x1024 .bf16) (h4 : a4.IsWhole) (a5 : Memref sig .tc .vmem S1x1x24 .f32) (h5 : a5.IsWhole) (a6 : Memref sig .tc .vmem S1x1x24 .f32) (h6 : a6.IsWhole) (hc : ¬cond0_0 i)
    (x0 : Vec F S1x1024x2048 .f32) (x1 : Vec F S48x2048 .f32) (xo3 xo4 : Vec F S1x1x24 .f32) :
    out0_B_3 c i a2 h2 a3 h3 a4 h4 a5 h5 a6 h6 hc x0 x1 xo3 xo4 = k0_pay6 x0 x1 xo3 := by
  unfold out0_B_3
  rw [View.read_writes_eq_canon _ _ _ (cover0_B_3 c i a2 h2 a3 h3 a4 h4 a5 h5 a6 h6 hc x0 x1 xo3 xo4)]
  unfold kernelRun0_B
  dsimp only
  rw [View.canon_unit_zero hz3]
  simp only [View.readAt_eq_ld, h2.read_unread, h3.read_unread, h5.read_unread, h6.read_unread, View.ld_unit_zero (S := S1x1024x2048) hz3, View.ld_unit_zero (S := S48x2048) hz2, View.ld_unit_zero (S := S1x1x24) hz3]

theorem out_B4 (c : Dev nD) (i : grid0.Coords) (a2 : Memref sig .tc .vmem S1x1024x2048 .f32) (h2 : a2.IsWhole) (a3 : Memref sig .tc .vmem S48x2048 .f32) (h3 : a3.IsWhole) (a4 : Memref sig .tc .vmem S1x24x1024 .bf16) (h4 : a4.IsWhole) (a5 : Memref sig .tc .vmem S1x1x24 .f32) (h5 : a5.IsWhole) (a6 : Memref sig .tc .vmem S1x1x24 .f32) (h6 : a6.IsWhole) (hc : ¬cond0_0 i)
    (x0 : Vec F S1x1024x2048 .f32) (x1 : Vec F S48x2048 .f32) (xo3 xo4 : Vec F S1x1x24 .f32) :
    out0_B_4 c i a2 h2 a3 h3 a4 h4 a5 h5 a6 h6 hc x0 x1 xo3 xo4 = k0_pay7 x0 x1 xo4 := by
  unfold out0_B_4
  rw [View.read_writes_eq_canon _ _ _ (cover0_B_4 c i a2 h2 a3 h3 a4 h4 a5 h5 a6 h6 hc x0 x1 xo3 xo4)]
  unfold kernelRun0_B
  dsimp only
  rw [View.canon_unit_zero hz3]
  simp only [View.readAt_eq_ld, h2.read_unread, h3.read_unread, h5.read_unread, h6.read_unread, View.ld_unit_zero (S := S1x1024x2048) hz3, View.ld_unit_zero (S := S48x2048) hz2, View.ld_unit_zero (S := S1x1x24) hz3]

/-- At a point that starts a batch the accumulators are zeroed first. -/
theorem out_A2 (c : Dev nD) (i : grid0.Coords) (a2 : Memref sig .tc .vmem S1x1024x2048 .f32) (h2 : a2.IsWhole) (a3 : Memref sig .tc .vmem S48x2048 .f32) (h3 : a3.IsWhole) (a4 : Memref sig .tc .vmem S1x24x1024 .bf16) (h4 : a4.IsWhole) (a5 : Memref sig .tc .vmem S1x1x24 .f32) (h5 : a5.IsWhole) (a6 : Memref sig .tc .vmem S1x1x24 .f32) (h6 : a6.IsWhole) (hc : cond0_0 i)
    (x0 : Vec F S1x1024x2048 .f32) (x1 : Vec F S48x2048 .f32) :
    out0_A_2 c i a2 h2 a3 h3 a4 h4 a5 h5 a6 h6 hc x0 x1 = k0_pay5 x0 x1 := by
  unfold out0_A_2
  rw [View.read_writes_eq_canon _ _ _ (cover0_A_2 c i a2 h2 a3 h3 a4 h4 a5 h5 a6 h6 hc x0 x1)]
  unfold kernelRun0_A
  dsimp only
  rw [View.canon_unit_zero hz3]
  simp only [View.readAt_eq_ld, h2.read_unread, h3.read_unread, h5.read_unread, h6.read_unread, View.ld_unit_zero (S := S1x1024x2048) hz3, View.ld_unit_zero (S := S48x2048) hz2, View.ld_unit_zero (S := S1x1x24) hz3]

theorem out_A3 (c : Dev nD) (i : grid0.Coords) (a2 : Memref sig .tc .vmem S1x1024x2048 .f32) (h2 : a2.IsWhole) (a3 : Memref sig .tc .vmem S48x2048 .f32) (h3 : a3.IsWhole) (a4 : Memref sig .tc .vmem S1x24x1024 .bf16) (h4 : a4.IsWhole) (a5 : Memref sig .tc .vmem S1x1x24 .f32) (h5 : a5.IsWhole) (a6 : Memref sig .tc .vmem S1x1x24 .f32) (h6 : a6.IsWhole) (hc : cond0_0 i)
    (x0 : Vec F S1x1024x2048 .f32) (x1 : Vec F S48x2048 .f32) :
    out0_A_3 c i a2 h2 a3 h3 a4 h4 a5 h5 a6 h6 hc x0 x1 = k0_pay6 x0 x1 k0_pay1 := by
  unfold out0_A_3
  rw [View.read_writes_eq_canon _ _ _ (cover0_A_3 c i a2 h2 a3 h3 a4 h4 a5 h5 a6 h6 hc x0 x1)]
  unfold kernelRun0_A
  dsimp only
  sl_unfold_words
  rw [View.canon_cons_unit_zero (S := S1x1x24) hz3, View.readCov_unit_zero (S := S1x1x24) _ hz3]
  simp only [View.readAt_eq_ld, h2.read_unread, h3.read_unread, h5.read_unread, h6.read_unread, View.ld_unit_zero (S := S1x1024x2048) hz3, View.ld_unit_zero (S := S48x2048) hz2, View.ld_unit_zero (S := S1x1x24) hz3]

theorem out_A4 (c : Dev nD) (i : grid0.Coords) (a2 : Memref sig .tc .vmem S1x1024x2048 .f32) (h2 : a2.IsWhole) (a3 : Memref sig .tc .vmem S48x2048 .f32) (h3 : a3.IsWhole) (a4 : Memref sig .tc .vmem S1x24x1024 .bf16) (h4 : a4.IsWhole) (a5 : Memref sig .tc .vmem S1x1x24 .f32) (h5 : a5.IsWhole) (a6 : Memref sig .tc .vmem S1x1x24 .f32) (h6 : a6.IsWhole) (hc : cond0_0 i)
    (x0 : Vec F S1x1024x2048 .f32) (x1 : Vec F S48x2048 .f32) :
    out0_A_4 c i a2 h2 a3 h3 a4 h4 a5 h5 a6 h6 hc x0 x1 = k0_pay7 x0 x1 k0_pay2 := by
  unfold out0_A_4
  rw [View.read_writes_eq_canon _ _ _ (cover0_A_4 c i a2 h2 a3 h3 a4 h4 a5 h5 a6 h6 hc x0 x1)]
  unfold kernelRun0_A
  dsimp only
  sl_unfold_words
  rw [View.canon_cons_unit_zero (S := S1x1x24) hz3, View.readCov_unit_zero (S := S1x1x24) _ hz3]
  simp only [View.readAt_eq_ld, h2.read_unread, h3.read_unread, h5.read_unread, h6.read_unread, View.ld_unit_zero (S := S1x1024x2048) hz3, View.ld_unit_zero (S := S48x2048) hz2, View.ld_unit_zero (S := S1x1x24) hz3]

end Pieces

/-! ## The blocks a point reads -/

section Values
variable (V : (c : Dev nD) → (b : Ref sig .tc) → Buf (Elt Ideal) ((c : Thread nD τ).loc b))

/-- The tokens and the stacked projection matrices as the launch finds them. -/
abbrev tokens (c : Dev nD) : Fin 8 → Fin 4096 → Fin 2048 → EReal := c3 (V c main_arg0 : S8x4096x2048.Idx → EReal)
abbrev stacked (c : Dev nD) : S48x2048.Idx → EReal := V c main_v0

/-- The two projection matrices inside the stacked array: rows 0–23 and rows 24–47. -/
def wTop (Wc : S48x2048.Idx → EReal) : Fin 24 → Fin 2048 → EReal := fun h d => Wc (ix2 ⟨h.val, by omega⟩ d)
def wBot (Wc : S48x2048.Idx → EReal) : Fin 24 → Fin 2048 → EReal := fun h d => Wc (ix2 ⟨24 + h.val, by omega⟩ d)

/-- Where the blocks sit, decided over the 32 grid points: point number 4 b + s is batch `b`, block `s`. -/
theorem block_indices : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 3) = t.val / 4 ∧ win0_2.index t (1 : Fin 3) = 0 ∧ win0_2.index t (2 : Fin 3) = t.val % 4
    ∧ win0_3.index t (0 : Fin 3) = t.val / 4 ∧ win0_3.index t (1 : Fin 3) = 0 ∧ win0_3.index t (2 : Fin 3) = 0
    ∧ win0_4.index t (0 : Fin 3) = t.val / 4 ∧ win0_4.index t (1 : Fin 3) = 0 ∧ win0_4.index t (2 : Fin 3) = 0 :=
  (by decide +kernel : ∀ t : Fin grid0.N, _)

/-- The point's block of tokens and its block of weights, at their literal shapes. -/
abbrev blkTokens (c : Dev nD) (t : Fin cfg0.N) : Vec Ideal S1x1024x2048 .f32 := iblk0 V c 0 t
abbrev blkWeights (c : Dev nD) (t : Fin cfg0.N) : Vec Ideal S48x2048 .f32 := iblk0 V c 1 t

/-- Token `j` of the point's block of tokens is token `1024 s + j` of batch `b`. -/
theorem tokens_emb (t : Fin cfg0.N) (b : Fin 8) (k : Fin 4) (hb : t.val / 4 = b.val) (hk : t.val % 4 = k.val)
    (j : Fin 1024) (d : Fin 2048) :
    ((cfg0.win 0).blk t).view.emb (ix3 (0 : Fin 1) j d) = ix3 b (tok k j) d := by
  obtain ⟨e0, e1, e2, -⟩ := block_indices t
  funext a; apply Fin.ext
  match a with
  | ⟨0, _⟩ => show win0_0.index t (0 : Fin 3) * 1 + 1 * (0 : Fin 1).val = b.val; rw [e0]; simp only [Fin.val_zero]; omega
  | ⟨1, _⟩ => show win0_0.index t (1 : Fin 3) * 1024 + 1 * j.val = 1024 * k.val + j.val; rw [e1]; omega
  | ⟨2, _⟩ => show win0_0.index t (2 : Fin 3) * 2048 + 1 * d.val = d.val; rw [e2]; omega

/-- The point's block of weights is the whole stacked array. -/
theorem weights_emb (t : Fin cfg0.N) (a : Fin 48) (d : Fin 2048) :
    ((cfg0.win 1).blk t).view.emb (ix2 a d) = ix2 a d := by
  obtain ⟨-, -, -, e3, e4, -⟩ := block_indices t
  funext ax; apply Fin.ext
  match ax with
  | ⟨0, _⟩ => show win0_1.index t (0 : Fin 2) * 48 + 1 * a.val = a.val; rw [e3]; omega
  | ⟨1, _⟩ => show win0_1.index t (1 : Fin 2) * 2048 + 1 * d.val = d.val; rw [e4]; omega

/-- One feature of one token of the block, with the weight written first. -/
theorem feature_top (c : Dev nD) (t : Fin cfg0.N) (b : Fin 8) (k : Fin 4) (hb : t.val / 4 = b.val) (hk : t.val % 4 = k.val)
    (h : Fin 24) (j : Fin 1024) :
    (∑ d : Fin 2048, blkWeights V c t (ix2 ⟨h.val, by omega⟩ d) * blkTokens V c t (ix3 (0 : Fin 1) j d))
      = projT (tokens V c) (wTop (stacked V c)) b h (tok k j) :=
  Finset.sum_congr rfl fun d _ => congrArg₂ (· * ·) (congrArg (V c main_v0) (weights_emb t _ d))
    (congrArg (V c main_arg0) (tokens_emb t b k hb hk j d))

theorem feature_bot (c : Dev nD) (t : Fin cfg0.N) (b : Fin 8) (k : Fin 4) (hb : t.val / 4 = b.val) (hk : t.val % 4 = k.val)
    (h : Fin 24) (j : Fin 1024) :
    (∑ d : Fin 2048, blkWeights V c t (ix2 ⟨24 + h.val, by omega⟩ d) * blkTokens V c t (ix3 (0 : Fin 1) j d))
      = projT (tokens V c) (wBot (stacked V c)) b h (tok k j) :=
  Finset.sum_congr rfl fun d _ => congrArg₂ (· * ·) (congrArg (V c main_v0) (weights_emb t _ d))
    (congrArg (V c main_arg0) (tokens_emb t b k hb hk j d))

/-! ## What the three output buffers hold after each point -/

/-- The block of projections, at a point that starts a batch and at one that continues it. -/
theorem stored_start (c : Dev nD) (t : Fin cfg0.N) (h0 : t.val % 4 = 0) :
    (outsAt0 V c t.val t.isLt).1 = k0_pay5 (F := Ideal) (iblk0 V c 0 t) (iblk0 V c 1 t) := by
  rw [outsAt0_A V c t h0]
  dsimp only
  exact out_A2 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t)

theorem stored_step (c : Dev nD) (t : Fin cfg0.N) (h0 : ¬t.val % 4 = 0) :
    (outsAt0 V c t.val t.isLt).1 = k0_pay5 (F := Ideal) (iblk0 V c 0 t) (iblk0 V c 1 t) := by
  rw [outsAt0_B V c t h0]
  dsimp only
  exact out_B2 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk0 V c 0 t) (iblk0 V c 1 t) (outsAt0 V c (t.val - 1) (Nat.lt_of_le_of_lt (Nat.sub_le _ _) t.isLt)).2.1 (outsAt0 V c (t.val - 1) (Nat.lt_of_le_of_lt (Nat.sub_le _ _) t.isLt)).2.2

theorem stored_proj (c : Dev nD) (t : Fin cfg0.N) :
    (outsAt0 V c t.val t.isLt).1 = k0_pay5 (F := Ideal) (iblk0 V c 0 t) (iblk0 V c 1 t) := by
  by_cases h0 : t.val % 4 = 0
  · exact stored_start V c t h0
  · exact stored_step V c t h0

/-- The first accumulator at a point that starts a batch, and at a point that continues one. -/
theorem acc3_start (c : Dev nD) (t : Fin cfg0.N) (h0 : t.val % 4 = 0) :
    (outsAt0 V c t.val t.isLt).2.1 = k0_pay6 (F := Ideal) (iblk0 V c 0 t) (iblk0 V c 1 t) (k0_pay1 (F := Ideal)) :=
  (congrArg (fun p => p.2.1) (outsAt0_A V c t h0)).trans
    (out_A3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t))

theorem acc3_step (c : Dev nD) (n : ℕ) (hn : n + 1 < cfg0.N) (h0 : ¬(n + 1) % 4 = 0) :
    (outsAt0 V c (n + 1) hn).2.1
      = k0_pay6 (F := Ideal) (iblk0 V c 0 ⟨n + 1, hn⟩) (iblk0 V c 1 ⟨n + 1, hn⟩) (outsAt0 V c n (Nat.lt_of_succ_lt hn)).2.1 :=
  (congrArg (fun p => p.2.1) (outsAt0_B V c ⟨n + 1, hn⟩ h0)).trans
    (out_B3 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩)
      (outsAt0 V c n (Nat.lt_of_succ_lt hn)).2.1 (outsAt0 V c n (Nat.lt_of_succ_lt hn)).2.2)

/-- The second accumulator likewise. -/
theorem acc4_start (c : Dev nD) (t : Fin cfg0.N) (h0 : t.val % 4 = 0) :
    (outsAt0 V c t.val t.isLt).2.2 = k0_pay7 (F := Ideal) (iblk0 V c 0 t) (iblk0 V c 1 t) (k0_pay2 (F := Ideal)) :=
  (congrArg (fun p => p.2.2) (outsAt0_A V c t h0)).trans
    (out_A4 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0) (iblk0 V c 0 t) (iblk0 V c 1 t))

theorem acc4_step (c : Dev nD) (n : ℕ) (hn : n + 1 < cfg0.N) (h0 : ¬(n + 1) % 4 = 0) :
    (outsAt0 V c (n + 1) hn).2.2
      = k0_pay7 (F := Ideal) (iblk0 V c 0 ⟨n + 1, hn⟩) (iblk0 V c 1 ⟨n + 1, hn⟩) (outsAt0 V c n (Nat.lt_of_succ_lt hn)).2.2 :=
  (congrArg (fun p => p.2.2) (outsAt0_B V c ⟨n + 1, hn⟩ h0)).trans
    (out_B4 (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk0 V c 0 ⟨n + 1, hn⟩) (iblk0 V c 1 ⟨n + 1, hn⟩)
      (outsAt0 V c n (Nat.lt_of_succ_lt hn)).2.1 (outsAt0 V c n (Nat.lt_of_succ_lt hn)).2.2)

/-- After the fourth point of a batch the first accumulator holds the four block sums, added in order from zero. -/
theorem acc3_value (c : Dev nD) (k : ℕ) (hk : k + 1 + 1 + 1 < cfg0.N) (h4 : k % 4 = 0) (b : Fin 8) (hb : k / 4 = b.val)
    (u w : Fin 1) (h : Fin 24) :
    (outsAt0 V c (k + 1 + 1 + 1) hk).2.1 (ix3 u w h) = sumK (tokens V c) (wTop (stacked V c)) b h := by
  have hN : cfg0.N = 32 := N_0
  have hk2 : k + 1 + 1 < cfg0.N := Nat.lt_of_succ_lt hk
  have hk1 : k + 1 < cfg0.N := Nat.lt_of_succ_lt hk2
  have hk0 : k < cfg0.N := Nat.lt_of_succ_lt hk1
  rw [acc3_step V c (k + 1 + 1) hk (by omega)]
  refine (pay6_apply (iblk0 V c 0 ⟨k + 1 + 1 + 1, hk⟩) (iblk0 V c 1 ⟨k + 1 + 1 + 1, hk⟩) _ u w h).trans ?_
  rw [acc3_step V c (k + 1) hk2 (by omega)]
  refine (congrArg (· + _) (pay6_apply (iblk0 V c 0 ⟨k + 1 + 1, hk2⟩) (iblk0 V c 1 ⟨k + 1 + 1, hk2⟩) _ u w h)).trans ?_
  rw [acc3_step V c k hk1 (by omega)]
  refine (congrArg (· + _ + _) (pay6_apply (iblk0 V c 0 ⟨k + 1, hk1⟩) (iblk0 V c 1 ⟨k + 1, hk1⟩) _ u w h)).trans ?_
  rw [acc3_start V c ⟨k, hk0⟩ h4]
  refine (congrArg (· + _ + _ + _) (pay6_apply (iblk0 V c 0 ⟨k, hk0⟩) (iblk0 V c 1 ⟨k, hk0⟩) _ u w h)).trans ?_
  rw [pay1_apply]
  unfold sumK blockSum
  refine congrArg₂ (· + ·) (congrArg₂ (· + ·) (congrArg₂ (· + ·) (congrArg (0 + ·) ?_) ?_) ?_) ?_
  · exact Finset.sum_congr rfl fun j _ => feature_top V c ⟨k, hk0⟩ b 0 (by show k / 4 = b.val; omega) (by show k % 4 = (0 : Fin 4).val; simp only [Fin.val_zero]; omega) h j
  · exact Finset.sum_congr rfl fun j _ => feature_top V c ⟨k + 1, hk1⟩ b 1 (by show (k + 1) / 4 = b.val; omega) (by show (k + 1) % 4 = (1 : Fin 4).val; simp only [Fin.val_one]; omega) h j
  · exact Finset.sum_congr rfl fun j _ => feature_top V c ⟨k + 1 + 1, hk2⟩ b 2 (by show (k + 1 + 1) / 4 = b.val; omega) (by show (k + 1 + 1) % 4 = (2 : Fin 4).val; show _ = 2; omega) h j
  · exact Finset.sum_congr rfl fun j _ => feature_top V c ⟨k + 1 + 1 + 1, hk⟩ b 3 (by show (k + 1 + 1 + 1) / 4 = b.val; omega) (by show (k + 1 + 1 + 1) % 4 = (3 : Fin 4).val; show _ = 3; omega) h j

/-- After the fourth point of a batch the second accumulator holds the four block sums, added in order from zero. -/
theorem acc4_value (c : Dev nD) (k : ℕ) (hk : k + 1 + 1 + 1 < cfg0.N) (h4 : k % 4 = 0) (b : Fin 8) (hb : k / 4 = b.val)
    (u w : Fin 1) (h : Fin 24) :
    (outsAt0 V c (k + 1 + 1 + 1) hk).2.2 (ix3 u w h) = sumK (tokens V c) (wBot (stacked V c)) b h := by
  have hN : cfg0.N = 32 := N_0
  have hk2 : k + 1 + 1 < cfg0.N := Nat.lt_of_succ_lt hk
  have hk1 : k + 1 < cfg0.N := Nat.lt_of_succ_lt hk2
  have hk0 : k < cfg0.N := Nat.lt_of_succ_lt hk1
  rw [acc4_step V c (k + 1 + 1) hk (by omega)]
  refine (pay7_apply (iblk0 V c 0 ⟨k + 1 + 1 + 1, hk⟩) (iblk0 V c 1 ⟨k + 1 + 1 + 1, hk⟩) _ u w h).trans ?_
  rw [acc4_step V c (k + 1) hk2 (by omega)]
  refine (congrArg (· + _) (pay7_apply (iblk0 V c 0 ⟨k + 1 + 1, hk2⟩) (iblk0 V c 1 ⟨k + 1 + 1, hk2⟩) _ u w h)).trans ?_
  rw [acc4_step V c k hk1 (by omega)]
  refine (congrArg (· + _ + _) (pay7_apply (iblk0 V c 0 ⟨k + 1, hk1⟩) (iblk0 V c 1 ⟨k + 1, hk1⟩) _ u w h)).trans ?_
  rw [acc4_start V c ⟨k, hk0⟩ h4]
  refine (congrArg (· + _ + _ + _) (pay7_apply (iblk0 V c 0 ⟨k, hk0⟩) (iblk0 V c 1 ⟨k, hk0⟩) _ u w h)).trans ?_
  rw [pay2_apply]
  unfold sumK blockSum
  refine congrArg₂ (· + ·) (congrArg₂ (· + ·) (congrArg₂ (· + ·) (congrArg (0 + ·) ?_) ?_) ?_) ?_
  · exact Finset.sum_congr rfl fun j _ => feature_bot V c ⟨k, hk0⟩ b 0 (by show k / 4 = b.val; omega) (by show k % 4 = (0 : Fin 4).val; simp only [Fin.val_zero]; omega) h j
  · exact Finset.sum_congr rfl fun j _ => feature_bot V c ⟨k + 1, hk1⟩ b 1 (by show (k + 1) / 4 = b.val; omega) (by show (k + 1) % 4 = (1 : Fin 4).val; simp only [Fin.val_one]; omega) h j
  · exact Finset.sum_congr rfl fun j _ => feature_bot V c ⟨k + 1 + 1, hk2⟩ b 2 (by show (k + 1 + 1) / 4 = b.val; omega) (by show (k + 1 + 1) % 4 = (2 : Fin 4).val; show _ = 2; omega) h j
  · exact Finset.sum_congr rfl fun j _ => feature_bot V c ⟨k + 1 + 1 + 1, hk⟩ b 3 (by show (k + 1 + 1 + 1) / 4 = b.val; omega) (by show (k + 1 + 1 + 1) % 4 = (3 : Fin 4).val; show _ = 3; omega) h j

/-! ## From the blocks to the arrays -/

/-- The array of stored projections the launch leaves: feature `h` of token `t` of batch `b`, at (b, h, t). -/
abbrev projArr (c : Dev nD) : S8x24x4096.Idx → EReal := fun i => projT (tokens V c) (wTop (stacked V c)) (i 0) (i 1) (i 2)

/-- Every point writes back its block of `projArr`. -/
theorem flushed2_eq (c : Dev nD) (t : Fin cfg0.N) :
    (dat0 V c).flushed 2 t = ((cfg0.win 2).blk t).view.read (Elt Ideal) (projArr V c) := by
  have hN : cfg0.N = 32 := N_0
  have htl : t.val < 32 := lt_of_lt_of_eq t.isLt hN
  obtain ⟨-, -, -, -, -, e0, e1, e2, -⟩ := block_indices t
  show (cfg0.win 2).cut (grid0.coords t) ((dat0 V c).after 2 t) = _
  rw [after0_2, stored_proj]
  funext y
  obtain ⟨u, h, j, rfl⟩ : ∃ (u : Fin 1) (h : Fin 24) (j : Fin 1024), y = ix3 u h j := ⟨y 0, y 1, y 2, eq_ix3 y⟩
  show k0_pay5 (F := Ideal) (iblk0 V c 0 t) (iblk0 V c 1 t) (ix3 u h j) = projArr V c (((cfg0.win 2).blk t).view.emb (ix3 u h j))
  refine (pay5_apply (iblk0 V c 0 t) (iblk0 V c 1 t) u h j).trans ?_
  have hb : t.val / 4 < 8 := by omega
  have hs : t.val % 4 < 4 := by omega
  refine (feature_top V c t ⟨t.val / 4, hb⟩ ⟨t.val % 4, hs⟩ rfl rfl h j).trans ?_
  show projT (tokens V c) (wTop (stacked V c)) ⟨t.val / 4, hb⟩ h (tok ⟨t.val % 4, hs⟩ j) = projT (tokens V c) (wTop (stacked V c)) _ _ _
  have c0 : (⟨t.val / 4, hb⟩ : Fin 8) = (((cfg0.win 2).blk t).view.emb (ix3 u h j)) 0 := Fin.ext (by
    show t.val / 4 = win0_2.index t (0 : Fin 3) * 1 + 1 * u.val
    rw [e0]; have := u.isLt; omega)
  have c1 : h = (((cfg0.win 2).blk t).view.emb (ix3 u h j)) 1 := Fin.ext (by
    show h.val = win0_2.index t (1 : Fin 3) * 24 + 1 * h.val
    rw [e1]; omega)
  have c2 : tok ⟨t.val % 4, hs⟩ j = (((cfg0.win 2).blk t).view.emb (ix3 u h j)) 2 := Fin.ext (by
    show 1024 * (t.val % 4) + j.val = win0_2.index t (2 : Fin 3) * 1024 + 1 * j.val
    rw [e2]; omega)
  exact congr (congr (congrArg (projT (tokens V c) (wTop (stacked V c))) c0) c1) c2

theorem mem_block2 (t : Fin cfg0.N) (i : S8x24x4096.Idx) :
    i ∈ ((cfg0.win 2).blk t).view.set ↔ ∀ a : Fin 3, win0_2.index t a * S1x24x1024.size a ≤ (i a).val ∧ (i a).val < win0_2.index t a * S1x24x1024.size a + S1x24x1024.size a := by
  show i ∈ ((View.whole main_v1_0).slice (win0_2.rect t)).set ↔ _
  rw [View.set_slice_whole, Rect.mem_set_unit]
  exact Iff.rfl

/-- The blocks tile the projections: (b, h, t) lies in the block of the point (b, t / 1024). -/
theorem cover2 (i : S8x24x4096.Idx) :
    ∃ t : Fin cfg0.N, (cfg0.win 2).flush t = true ∧ i ∈ ((cfg0.win 2).blk t).view.set := by
  have hN : cfg0.N = 32 := N_0
  have hi0 : (i 0).val < 8 := (i 0).isLt
  have hi1 : (i 1).val < 24 := (i 1).isLt
  have hi2 : (i 2).val < 4096 := (i 2).isLt
  have ht : 4 * (i 0).val + (i 2).val / 1024 < cfg0.N := by omega
  obtain ⟨-, -, -, -, -, e0, e1, e2, -⟩ := block_indices ⟨4 * (i 0).val + (i 2).val / 1024, ht⟩
  have e0' : win0_2.index ⟨4 * (i 0).val + (i 2).val / 1024, ht⟩ (0 : Fin 3) = (i 0).val := by
    rw [e0]; show (4 * (i 0).val + (i 2).val / 1024) / 4 = (i 0).val; omega
  have e2' : win0_2.index ⟨4 * (i 0).val + (i 2).val / 1024, ht⟩ (2 : Fin 3) = (i 2).val / 1024 := by
    rw [e2]; show (4 * (i 0).val + (i 2).val / 1024) % 4 = (i 2).val / 1024; omega
  refine ⟨⟨4 * (i 0).val + (i 2).val / 1024, ht⟩, flush0_2 _, ?_⟩
  rw [mem_block2]
  intro a
  match a with
  | ⟨0, _⟩ => show win0_2.index ⟨4 * (i 0).val + (i 2).val / 1024, ht⟩ (0 : Fin 3) * 1 ≤ (i 0).val ∧ (i 0).val < win0_2.index ⟨4 * (i 0).val + (i 2).val / 1024, ht⟩ (0 : Fin 3) * 1 + 1; rw [e0']; omega
  | ⟨1, _⟩ => show win0_2.index ⟨4 * (i 0).val + (i 2).val / 1024, ht⟩ (1 : Fin 3) * 24 ≤ (i 1).val ∧ (i 1).val < win0_2.index ⟨4 * (i 0).val + (i 2).val / 1024, ht⟩ (1 : Fin 3) * 24 + 24; rw [e1]; omega
  | ⟨2, _⟩ => show win0_2.index ⟨4 * (i 0).val + (i 2).val / 1024, ht⟩ (2 : Fin 3) * 1024 ≤ (i 2).val ∧ (i 2).val < win0_2.index ⟨4 * (i 0).val + (i 2).val / 1024, ht⟩ (2 : Fin 3) * 1024 + 1024; rw [e2']; omega

/-- The stored projections after the launch. -/
theorem final0_2 (c : Dev nD) : ((dat0 V c).arrAt 2 cfg0.N : S8x24x4096.Idx → EReal)
    = fun i => projT (tokens V c) (wTop (stacked V c)) (i 0) (i 1) (i 2) :=
  (dat0 V c).arrAt_eq_of_cover 2 (projArr V c) (fun t _ => flushed2_eq V c t) (cover2)

/-- The first array of feature sums the launch leaves. -/
abbrev sumsTop (c : Dev nD) : S8x1x24.Idx → EReal := fun i => sumK (tokens V c) (wTop (stacked V c)) (i 0) (i 2)

/-- The point that ends a batch writes back that batch's row of `sumsTop`. -/
theorem flushed3_eq (c : Dev nD) (t : Fin cfg0.N) (hf : (cfg0.win 3).flush t = true) :
    (dat0 V c).flushed 3 t = ((cfg0.win 3).blk t).view.read (Elt Ideal) (sumsTop V c) := by
  have hN : cfg0.N = 32 := N_0
  have h3 : t.val % 4 = 3 := (flush0_3 t).mp hf
  obtain ⟨k, hk, rfl⟩ : ∃ (k : ℕ) (hk : k + 1 + 1 + 1 < cfg0.N), t = ⟨k + 1 + 1 + 1, hk⟩ :=
    ⟨t.val - 3, by have := t.isLt; omega, Fin.ext (by show t.val = t.val - 3 + 1 + 1 + 1; omega)⟩
  have h3' : (k + 1 + 1 + 1) % 4 = 3 := h3
  obtain ⟨-, -, -, -, -, -, -, -, e0, e1, e2, -⟩ := block_indices ⟨k + 1 + 1 + 1, hk⟩
  show (cfg0.win 3).cut (grid0.coords ⟨k + 1 + 1 + 1, hk⟩) ((dat0 V c).after 3 ⟨k + 1 + 1 + 1, hk⟩) = _
  rw [after0_3]
  funext y
  obtain ⟨u, w, h, rfl⟩ : ∃ (u w : Fin 1) (h : Fin 24), y = ix3 u w h := ⟨y 0, y 1, y 2, eq_ix3 y⟩
  show (outsAt0 V c (k + 1 + 1 + 1) hk).2.1 (ix3 u w h) = sumsTop V c (((cfg0.win 3).blk ⟨k + 1 + 1 + 1, hk⟩).view.emb (ix3 u w h))
  have hb : k / 4 < 8 := by omega
  rw [acc3_value V c k hk (by omega) ⟨k / 4, hb⟩ rfl u w h]
  show sumK (tokens V c) (wTop (stacked V c)) ⟨k / 4, hb⟩ h = sumK (tokens V c) (wTop (stacked V c)) _ _
  refine congrArg₂ (sumK (tokens V c) (wTop (stacked V c))) (Fin.ext ?_) (Fin.ext ?_)
  · show k / 4 = win0_3.index ⟨k + 1 + 1 + 1, hk⟩ (0 : Fin 3) * 1 + 1 * u.val
    rw [e0]; have := u.isLt; show k / 4 = (k + 1 + 1 + 1) / 4 * 1 + 1 * u.val; omega
  · show h.val = win0_3.index ⟨k + 1 + 1 + 1, hk⟩ (2 : Fin 3) * 24 + 1 * h.val
    rw [e2]; omega

/-- An index of the array of sums is in a point's block iff each coordinate is in the block's range on its axis. -/
theorem mem_block3 (t : Fin cfg0.N) (i : S8x1x24.Idx) :
    i ∈ ((cfg0.win 3).blk t).view.set ↔ ∀ a : Fin 3, win0_3.index t a * S1x1x24.size a ≤ (i a).val ∧ (i a).val < win0_3.index t a * S1x1x24.size a + S1x1x24.size a := by
  show i ∈ ((View.whole main_v1_1).slice (win0_3.rect t)).set ↔ _
  rw [View.set_slice_whole, Rect.mem_set_unit]
  exact Iff.rfl

/-- Row `b` of the array of sums is written back by the last point of batch `b`. -/
theorem cover3 (i : S8x1x24.Idx) :
    ∃ t : Fin cfg0.N, (cfg0.win 3).flush t = true ∧ i ∈ ((cfg0.win 3).blk t).view.set := by
  have hN : cfg0.N = 32 := N_0
  have hi0 : (i 0).val < 8 := (i 0).isLt
  have hi1 : (i 1).val < 1 := (i 1).isLt
  have hi2 : (i 2).val < 24 := (i 2).isLt
  have ht : 4 * (i 0).val + 3 < cfg0.N := by omega
  obtain ⟨-, -, -, -, -, -, -, -, e0, e1, e2, -⟩ := block_indices ⟨4 * (i 0).val + 3, ht⟩
  have e0' : win0_3.index ⟨4 * (i 0).val + 3, ht⟩ (0 : Fin 3) = (i 0).val := by rw [e0]; show (4 * (i 0).val + 3) / 4 = (i 0).val; omega
  refine ⟨⟨4 * (i 0).val + 3, ht⟩, (flush0_3 _).mpr (by show (4 * (i 0).val + 3) % 4 = 3; omega), ?_⟩
  rw [mem_block3]
  intro a
  match a with
  | ⟨0, _⟩ => show win0_3.index ⟨4 * (i 0).val + 3, ht⟩ (0 : Fin 3) * 1 ≤ (i 0).val ∧ (i 0).val < win0_3.index ⟨4 * (i 0).val + 3, ht⟩ (0 : Fin 3) * 1 + 1; rw [e0']; omega
  | ⟨1, _⟩ => show win0_3.index ⟨4 * (i 0).val + 3, ht⟩ (1 : Fin 3) * 1 ≤ (i 1).val ∧ (i 1).val < win0_3.index ⟨4 * (i 0).val + 3, ht⟩ (1 : Fin 3) * 1 + 1; rw [e1]; omega
  | ⟨2, _⟩ => show win0_3.index ⟨4 * (i 0).val + 3, ht⟩ (2 : Fin 3) * 24 ≤ (i 2).val ∧ (i 2).val < win0_3.index ⟨4 * (i 0).val + 3, ht⟩ (2 : Fin 3) * 24 + 24; rw [e2]; omega

/-- The first array of feature sums after the launch. -/
theorem final0_3 (c : Dev nD) : ((dat0 V c).arrAt 3 cfg0.N : S8x1x24.Idx → EReal)
    = fun i => sumK (tokens V c) (wTop (stacked V c)) (i 0) (i 2) :=
  (dat0 V c).arrAt_eq_of_cover 3 (sumsTop V c) (flushed3_eq V c) (cover3)

/-- The second array of feature sums the launch leaves. -/
abbrev sumsBot (c : Dev nD) : S8x1x24.Idx → EReal := fun i => sumK (tokens V c) (wBot (stacked V c)) (i 0) (i 2)

/-- The point that ends a batch writes back that batch's row of `sumsBot`. -/
theorem flushed4_eq (c : Dev nD) (t : Fin cfg0.N) (hf : (cfg0.win 4).flush t = true) :
    (dat0 V c).flushed 4 t = ((cfg0.win 4).blk t).view.read (Elt Ideal) (sumsBot V c) := by
  have hN : cfg0.N = 32 := N_0
  have h3 : t.val % 4 = 3 := (flush0_4 t).mp hf
  obtain ⟨k, hk, rfl⟩ : ∃ (k : ℕ) (hk : k + 1 + 1 + 1 < cfg0.N), t = ⟨k + 1 + 1 + 1, hk⟩ :=
    ⟨t.val - 3, by have := t.isLt; omega, Fin.ext (by show t.val = t.val - 3 + 1 + 1 + 1; omega)⟩
  have h3' : (k + 1 + 1 + 1) % 4 = 3 := h3
  obtain ⟨-, -, -, -, -, -, -, -, -, -, -, e0, e1, e2⟩ := block_indices ⟨k + 1 + 1 + 1, hk⟩
  show (cfg0.win 4).cut (grid0.coords ⟨k + 1 + 1 + 1, hk⟩) ((dat0 V c).after 4 ⟨k + 1 + 1 + 1, hk⟩) = _
  rw [after0_4]
  funext y
  obtain ⟨u, w, h, rfl⟩ : ∃ (u w : Fin 1) (h : Fin 24), y = ix3 u w h := ⟨y 0, y 1, y 2, eq_ix3 y⟩
  show (outsAt0 V c (k + 1 + 1 + 1) hk).2.2 (ix3 u w h) = sumsBot V c (((cfg0.win 4).blk ⟨k + 1 + 1 + 1, hk⟩).view.emb (ix3 u w h))
  have hb : k / 4 < 8 := by omega
  rw [acc4_value V c k hk (by omega) ⟨k / 4, hb⟩ rfl u w h]
  show sumK (tokens V c) (wBot (stacked V c)) ⟨k / 4, hb⟩ h = sumK (tokens V c) (wBot (stacked V c)) _ _
  refine congrArg₂ (sumK (tokens V c) (wBot (stacked V c))) (Fin.ext ?_) (Fin.ext ?_)
  · show k / 4 = win0_4.index ⟨k + 1 + 1 + 1, hk⟩ (0 : Fin 3) * 1 + 1 * u.val
    rw [e0]; have := u.isLt; show k / 4 = (k + 1 + 1 + 1) / 4 * 1 + 1 * u.val; omega
  · show h.val = win0_4.index ⟨k + 1 + 1 + 1, hk⟩ (2 : Fin 3) * 24 + 1 * h.val
    rw [e2]; omega

/-- An index of the array of sums is in a point's block iff each coordinate is in the block's range on its axis. -/
theorem mem_block4 (t : Fin cfg0.N) (i : S8x1x24.Idx) :
    i ∈ ((cfg0.win 4).blk t).view.set ↔ ∀ a : Fin 3, win0_4.index t a * S1x1x24.size a ≤ (i a).val ∧ (i a).val < win0_4.index t a * S1x1x24.size a + S1x1x24.size a := by
  show i ∈ ((View.whole main_v1_2).slice (win0_4.rect t)).set ↔ _
  rw [View.set_slice_whole, Rect.mem_set_unit]
  exact Iff.rfl

/-- Row `b` of the array of sums is written back by the last point of batch `b`. -/
theorem cover4 (i : S8x1x24.Idx) :
    ∃ t : Fin cfg0.N, (cfg0.win 4).flush t = true ∧ i ∈ ((cfg0.win 4).blk t).view.set := by
  have hN : cfg0.N = 32 := N_0
  have hi0 : (i 0).val < 8 := (i 0).isLt
  have hi1 : (i 1).val < 1 := (i 1).isLt
  have hi2 : (i 2).val < 24 := (i 2).isLt
  have ht : 4 * (i 0).val + 3 < cfg0.N := by omega
  obtain ⟨-, -, -, -, -, -, -, -, -, -, -, e0, e1, e2⟩ := block_indices ⟨4 * (i 0).val + 3, ht⟩
  have e0' : win0_4.index ⟨4 * (i 0).val + 3, ht⟩ (0 : Fin 3) = (i 0).val := by rw [e0]; show (4 * (i 0).val + 3) / 4 = (i 0).val; omega
  refine ⟨⟨4 * (i 0).val + 3, ht⟩, (flush0_4 _).mpr (by show (4 * (i 0).val + 3) % 4 = 3; omega), ?_⟩
  rw [mem_block4]
  intro a
  match a with
  | ⟨0, _⟩ => show win0_4.index ⟨4 * (i 0).val + 3, ht⟩ (0 : Fin 3) * 1 ≤ (i 0).val ∧ (i 0).val < win0_4.index ⟨4 * (i 0).val + 3, ht⟩ (0 : Fin 3) * 1 + 1; rw [e0']; omega
  | ⟨1, _⟩ => show win0_4.index ⟨4 * (i 0).val + 3, ht⟩ (1 : Fin 3) * 1 ≤ (i 1).val ∧ (i 1).val < win0_4.index ⟨4 * (i 0).val + 3, ht⟩ (1 : Fin 3) * 1 + 1; rw [e1]; omega
  | ⟨2, _⟩ => show win0_4.index ⟨4 * (i 0).val + 3, ht⟩ (2 : Fin 3) * 24 ≤ (i 2).val ∧ (i 2).val < win0_4.index ⟨4 * (i 0).val + 3, ht⟩ (2 : Fin 3) * 24 + 24; rw [e2]; omega

/-- The second array of feature sums after the launch. -/
theorem final0_4 (c : Dev nD) : ((dat0 V c).arrAt 4 cfg0.N : S8x1x24.Idx → EReal)
    = fun i => sumK (tokens V c) (wBot (stacked V c)) (i 0) (i 2) :=
  (dat0 V c).arrAt_eq_of_cover 4 (sumsBot V c) (flushed4_eq V c) (cover4)

end Values

end Cert.KernelIdeal.Region0

end
-- ==== Proof.Region1.lean ====
/-
  The second launch, as one function of the arrays it finds.

  Grid point (b, s) takes the stored projections of batch `b`, tokens 1024 s … 1024 s + 1023 (a [24, 1024] block,
  feature-major) and the whole folded weight [24, 2048], and writes the [1024, 2048] block of products contracted
  over the 24 features.  The blocks tile the output, so after the launch the output at (b, t, d) is the sum over the
  features h of the projection (b, h, t) times the folded weight (h, d).
-/
import proofs.«113000_j17282948399130_2_alg».proof.Proof.Gen.KernelIdeal.Frame
import proofs.«113000_j17282948399130_2_alg».proof.Proof.HebbSpec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Region1

open Cert.KernelIdeal Cert.KernelIdeal.Gen Cert.Hebb Idealize.ShloMosaic Idealize.ShloMosaic.TcCoe Idealize.ShloMosaic.ValueIdx
  Idealize.SL.Sem
open Idealize.ShloMosaic.Pipeline (Dat)

/-! ## One block: the product of a [24, 1024] block of projections with the folded weight -/

/-- The contraction of the block product: axis 0 (the 24 features) of both operands; the free axes are the token
    within the block and the output width. -/
abbrev featDot := dot_S24x1024_S24x2048_S1024x2048_0_0_1_1_n_n

/-- The left operand is read at (feature, token): its contracted axis carries the summation index, -/
theorem featDot_lhs_feat (i : S1024x2048.Idx) (q : featDot.contr.Idx) : (featDot.lhsIdx i q 0).val = (q ⟨0, by decide⟩).val :=
  featDot.lhsIdx_val_of_single rfl i q
/-- and its free axis the result's row (the token). -/
theorem featDot_lhs_tok (i : S1024x2048.Idx) (q : featDot.contr.Idx) : (featDot.lhsIdx i q 1).val = (i 0).val := by
  unfold DotDims.lhsIdx
  rw [dif_neg (show ¬(1 : Fin S24x1024.rank) ∈ featDot.lhsBatch by decide), dif_pos (show (1 : Fin S24x1024.rank) ∈ featDot.lhsNonContracting by decide)]
  rfl
/-- The right operand is read at (feature, width): its contracted axis carries the summation index, -/
theorem featDot_rhs_feat (i : S1024x2048.Idx) (q : featDot.contr.Idx) : (featDot.rhsIdx i q 0).val = (q ⟨0, by decide⟩).val :=
  featDot.rhsIdx_val_of_single rfl i q
/-- and its free axis the result's column (the width). -/
theorem featDot_rhs_width (i : S1024x2048.Idx) (q : featDot.contr.Idx) : (featDot.rhsIdx i q 1).val = (i 1).val := by
  unfold DotDims.rhsIdx
  rw [dif_neg (show ¬(1 : Fin S24x2048.rank) ∈ featDot.rhsBatch by decide), dif_pos (show (1 : Fin S24x2048.rank) ∈ featDot.rhsNonContracting by decide)]
  rfl

/-- The matrix product into a zero accumulator, entry (p, q): the sum over the features h of l (h, p) · r (h, q). -/
theorem featDot_apply (l : FVec Ideal S24x1024 .bf16) (r : FVec Ideal S24x2048 .bf16) (p : Fin 1024) (q : Fin 2048) :
    FloatOps.matmul featDot none l r (constant S1024x2048 .f32 0x00000000#32) (ix2 p q) = ∑ h : Fin 24, l (ix2 h p) * r (ix2 h q) := by
  rw [Ideal.matmul_constant_zero_apply, ← Equiv.sum_comp (contrEquiv1 featDot 24 rfl rfl).symm]
  refine Finset.sum_congr rfl fun k _ => ?_
  have hk := contrEquiv1_symm_val featDot 24 rfl rfl k
  have el : featDot.lhsIdx (ix2 p q) ((contrEquiv1 featDot 24 rfl rfl).symm k) = ix2 k p := funext fun a => Fin.ext (by
    match a with
    | ⟨0, _⟩ => exact (featDot_lhs_feat _ _).trans hk
    | ⟨1, _⟩ => exact featDot_lhs_tok _ _)
  have er : featDot.rhsIdx (ix2 p q) ((contrEquiv1 featDot 24 rfl rfl).symm k) = ix2 k q := funext fun a => Fin.ext (by
    match a with
    | ⟨0, _⟩ => exact (featDot_rhs_feat _ _).trans hk
    | ⟨1, _⟩ => exact featDot_rhs_width _ _)
  rw [el, er]

/-- What the body stores, entry (u, p, q) of its [1, 1024, 2048] block: the unit axes are cast away and back, the
    rounding of the weight is the identity on the extended reals, and what remains is the sum over the features of
    the projection block at (0, h, p) times the weight at (h, q). -/
theorem blockProduct_apply (x0 : Vec Ideal S1x24x1024 .bf16) (x1 : Vec Ideal S24x2048 .f32) (u : Fin 1) (p : Fin 1024) (q : Fin 2048) :
    k1_pay1 (F := Ideal) x0 x1 (ix3 u p q) = ∑ h : Fin 24, x0 (ix3 (0 : Fin 1) h p) * x1 (ix2 h q) := by
  unfold k1_pay1
  refine (shapeCast_ab_1ab_apply _ _ u p q).trans ?_
  refine (featDot_apply _ _ p q).trans ?_
  refine Finset.sum_congr rfl fun h _ => ?_
  rw [shapeCast_1ab_ab_apply, shapeCast_self]
  rfl

/-! ## From the blocks to the array -/

variable (V : (c : Dev nD) → (b : Ref sig .tc) → Buf (Elt Ideal) ((c : Thread nD τ).loc b))

/-- The array the launch leaves: at (b, t, d) the sum over the features of the stored projection times the folded
    weight. -/
abbrev modArr (c : Dev nD) : S8x4096x2048.Idx → EReal :=
  fun i => modK (c3 (V c main_v1_0 : S8x24x4096.Idx → EReal)) (c2 (V c main_v18 : S24x2048.Idx → EReal)) (i 0) (i 1) (i 2)

theorem zeros3 : (![0, 0, 0] : Fin 3 → Nat) = fun _ => 0 := funext fun a => by fin_cases a <;> rfl
theorem zeros2 : (![0, 0] : Fin 2 → Nat) = fun _ => 0 := funext fun a => by fin_cases a <;> rfl

/-- Where the blocks sit, decided over the 32 grid points: point number 4 b + s is (b, s); the projection block is
    (b, 0, s) of its array, the weight block is the whole weight, the output block is (b, s, 0). -/
theorem block_indices : ∀ t : Fin cfg1.N, win1_0.index t (0 : Fin 3) = win1_2.index t (0 : Fin 3)
    ∧ win1_0.index t (1 : Fin 3) = 0
    ∧ win1_0.index t (2 : Fin 3) = win1_2.index t (1 : Fin 3)
    ∧ win1_1.index t (0 : Fin 2) = 0
    ∧ win1_1.index t (1 : Fin 2) = 0
    ∧ win1_2.index t (2 : Fin 3) = 0
    ∧ win1_2.index t (0 : Fin 3) = t.val / 4
    ∧ win1_2.index t (1 : Fin 3) = t.val % 4 :=
  (by decide +kernel : ∀ t : Fin grid1.N, _)

/-- Every output block (b, s, 0) is some point's. -/
theorem block_onto : ∀ (q0 : Fin 8) (q1 : Fin 4), ∃ t : Fin cfg1.N, win1_2.index t = ![q0.val, q1.val, 0] :=
  (by decide +kernel : ∀ (q0 : Fin 8) (q1 : Fin 4), ∃ t : Fin grid1.N, win1_2.index t = ![q0.val, q1.val, 0])

/-- Entry (0, h, p) of the projection block at a point is the array's entry at the output block's batch, feature h,
    and the output block's token p. -/
theorem projBlock_emb (t : Fin cfg1.N) (u : Fin 1) (h : Fin 24) (p : Fin 1024) (q : Fin 2048) :
    ((cfg1.win 0).blk t).view.emb (ix3 (0 : Fin 1) h p)
      = ix3 ((((cfg1.win 2).blk t).view.emb (ix3 u p q)) 0) h ((((cfg1.win 2).blk t).view.emb (ix3 u p q)) 1) := by
  obtain ⟨e0, e1, e2, -, -, -, -, -⟩ := block_indices t
  funext a; apply Fin.ext
  match a with
  | ⟨0, _⟩ => show win1_0.index t (0 : Fin 3) * 1 + 1 * (0 : Fin 1).val = win1_2.index t (0 : Fin 3) * 1 + 1 * u.val; have := u.isLt; rw [e0]; simp only [Fin.val_zero]; omega
  | ⟨1, _⟩ => show win1_0.index t (1 : Fin 3) * 24 + 1 * h.val = h.val; rw [e1]; omega
  | ⟨2, _⟩ => show win1_0.index t (2 : Fin 3) * 1024 + 1 * p.val = win1_2.index t (1 : Fin 3) * 1024 + 1 * p.val; rw [e2]

/-- Entry (h, q) of the weight block is the weight's entry (h, the output block's width q). -/
theorem weightBlock_emb (t : Fin cfg1.N) (u : Fin 1) (h : Fin 24) (p : Fin 1024) (q : Fin 2048) :
    ((cfg1.win 1).blk t).view.emb (ix2 h q) = ix2 h ((((cfg1.win 2).blk t).view.emb (ix3 u p q)) 2) := by
  obtain ⟨-, -, -, e3, e4, e5, -, -⟩ := block_indices t
  funext a; apply Fin.ext
  match a with
  | ⟨0, _⟩ => show win1_1.index t (0 : Fin 2) * 24 + 1 * h.val = h.val; rw [e3]; omega
  | ⟨1, _⟩ => show win1_1.index t (1 : Fin 2) * 2048 + 1 * q.val = win1_2.index t (2 : Fin 3) * 2048 + 1 * q.val; rw [e4, e5]

/-- What a point writes back is its block of `modArr`. -/
theorem flushed_eq (c : Dev nD) (t : Fin cfg1.N) :
    (dat1 V c).flushed 2 t = ((cfg1.win 2).blk t).view.read (Elt Ideal) (modArr V c) := by
  show (cfg1.win 2).cut (grid1.coords t) ((dat1 V c).after 2 t) = _
  rw [after1_2]
  unfold out1_2
  rw [View.canon_unit_zero zeros3]
  simp only [View.ld_unit_zero (S := S1x24x1024) zeros3, View.ld_unit_zero (S := S24x2048) zeros2]
  funext y
  obtain ⟨u, p, q, rfl⟩ : ∃ (u : Fin 1) (p : Fin 1024) (q : Fin 2048), y = ix3 u p q := ⟨y 0, y 1, y 2, eq_ix3 y⟩
  show k1_pay1 (F := Ideal) (iblk1 V c 0 t) (iblk1 V c 1 t) (ix3 u p q) = modArr V c (((cfg1.win 2).blk t).view.emb (ix3 u p q))
  refine (blockProduct_apply _ _ u p q).trans ?_
  refine Finset.sum_congr rfl fun h _ => ?_
  exact congrArg₂ (· * ·) (congrArg (V c main_v1_0) (projBlock_emb t u h p q)) (congrArg (V c main_v18) (weightBlock_emb t u h p q))

/-- An index of the output is in a point's block iff each coordinate is in the block's range on its axis. -/
theorem mem_block (t : Fin cfg1.N) (i : S8x4096x2048.Idx) :
    i ∈ ((cfg1.win 2).blk t).view.set ↔ ∀ a : Fin 3, win1_2.index t a * S1x1024x2048.size a ≤ (i a).val ∧ (i a).val < win1_2.index t a * S1x1024x2048.size a + S1x1024x2048.size a := by
  show i ∈ ((View.whole main_v20).slice (win1_2.rect t)).set ↔ _
  rw [View.set_slice_whole, Rect.mem_set_unit]
  exact Iff.rfl

/-- The blocks tile the output: (b, t, d) lies in the block of the point (b, t / 1024). -/
theorem blocks_cover (i : S8x4096x2048.Idx) :
    ∃ t : Fin cfg1.N, (cfg1.win 2).flush t = true ∧ i ∈ ((cfg1.win 2).blk t).view.set := by
  have hi0 : (i 0).val < 8 := (i 0).isLt
  have hi1 : (i 1).val < 4096 := (i 1).isLt
  have hi2 : (i 2).val < 2048 := (i 2).isLt
  obtain ⟨t, ht⟩ := block_onto ⟨(i 0).val, hi0⟩ ⟨(i 1).val / 1024, by omega⟩
  have q0 : win1_2.index t (0 : Fin 3) = (i 0).val := congrFun ht 0
  have q1 : win1_2.index t (1 : Fin 3) = (i 1).val / 1024 := congrFun ht 1
  have q2 : win1_2.index t (2 : Fin 3) = 0 := congrFun ht 2
  refine ⟨t, flush1_2 t, ?_⟩
  rw [mem_block]
  intro a
  match a with
  | ⟨0, _⟩ => show win1_2.index t (0 : Fin 3) * 1 ≤ (i 0).val ∧ (i 0).val < win1_2.index t (0 : Fin 3) * 1 + 1; omega
  | ⟨1, _⟩ => show win1_2.index t (1 : Fin 3) * 1024 ≤ (i 1).val ∧ (i 1).val < win1_2.index t (1 : Fin 3) * 1024 + 1024; omega
  | ⟨2, _⟩ => show win1_2.index t (2 : Fin 3) * 2048 ≤ (i 2).val ∧ (i 2).val < win1_2.index t (2 : Fin 3) * 2048 + 2048; omega

/-- The output array after the second launch: at (b, t, d) the sum over the features of the stored projection times the
    folded weight. -/
theorem final1 (c : Dev nD) : ((dat1 V c).arrAt 2 cfg1.N : S8x4096x2048.Idx → EReal)
    = fun i => modK (c3 (V c main_v1_0 : S8x24x4096.Idx → EReal)) (c2 (V c main_v18 : S24x2048.Idx → EReal)) (i 0) (i 1) (i 2) :=
  (dat1 V c).arrAt_eq_of_cover 2 (modArr V c) (fun t _ => flushed_eq V c t) blocks_cover

end Cert.KernelIdeal.Region1

end
-- ==== Proof.KernelHost.lean ====
/-
  The host operations around the kernel's two launches, read entry by entry.

  Before the first launch the two projection matrices are stacked (rows 0–23 the first, rows 24–47 the second).
  Between the launches, from the two arrays of feature sums the first launch leaves: the sums are divided by the
  sequence length, the outer product of the two means is averaged over the batch, the trace is updated and added to
  the plastic matrix; that effective weight is folded with the transposed output matrix, and the state is the
  feature mean times the effective weight.
-/
import proofs.«113000_j17282948399130_2_alg».proof.Proof.Gen.KernelIdeal.Launch
import proofs.«113000_j17282948399130_2_alg».proof.Proof.HebbSpec
import Idealize.ShloMosaic.Lib.StableHlo.Run
import Idealize.ShloMosaic.Lib.Pipeline.Value
import Idealize.ShloMosaic.Lib.ValueIdx
import Idealize.ShloMosaic.PureOps.Ideal.Laws

noncomputable section

open scoped BigOperators

namespace Cert.KernelIdeal.HostValue

open Cert.KernelIdeal Cert.KernelIdeal.Gen Cert.Hebb Idealize.ShloMosaic Idealize.ShloMosaic.TcCoe Idealize.ShloMosaic.ValueIdx
  Idealize.ShloMosaic.StableHlo

variable (W : Valuation τ sig (Elt Ideal))

/-- The feature sums as the first launch leaves them, `[8, 1, 24]`, by batch and feature. -/
def sums (S : S8x1x24.Idx → EReal) : Fin 8 → Fin 24 → EReal := fun b h => S (ix3 b (0 : Fin 1) h)

/-- The effective weight the host forms from the two arrays of sums, the plastic matrix and the trace. -/
def effHost : Fin 24 → Fin 24 → EReal :=
  effW (c2 (W (Proc.devRef .tc main_arg3) : S24x24.Idx → EReal)) (c2 (W (Proc.devRef .tc main_arg5) : S24x24.Idx → EReal)) Q8 CD CL
    (meanOf Q4 (sums (W (Proc.devRef .tc main_v1_1) : S8x1x24.Idx → EReal)))
    (meanOf Q4 (sums (W (Proc.devRef .tc main_v1_2) : S8x1x24.Idx → EReal)))

/-! ## The three products read at an entry

Each of the three `dot_general`s contracts one axis: its entry is the sum, over that axis, of the products of the
two operands' entries; the other coordinates are the result's. -/

theorem lhs_outer_0 (i : S24x24.Idx) (q : dot_S8x24_S8x24_S24x24_0_0_1_1_n_n.contr.Idx) :
    (dot_S8x24_S8x24_S24x24_0_0_1_1_n_n.lhsIdx i q 0).val = (q ⟨0, by decide⟩).val :=
  dot_S8x24_S8x24_S24x24_0_0_1_1_n_n.lhsIdx_val_of_single rfl i q
theorem lhs_outer_1 (i : S24x24.Idx) (q : dot_S8x24_S8x24_S24x24_0_0_1_1_n_n.contr.Idx) :
    (dot_S8x24_S8x24_S24x24_0_0_1_1_n_n.lhsIdx i q 1).val = (i 0).val := by
  unfold DotDims.lhsIdx
  rw [dif_neg (show ¬(1 : Fin S8x24.rank) ∈ dot_S8x24_S8x24_S24x24_0_0_1_1_n_n.lhsBatch by decide), dif_pos (show (1 : Fin S8x24.rank) ∈ dot_S8x24_S8x24_S24x24_0_0_1_1_n_n.lhsNonContracting by decide)]
  rfl
theorem rhs_outer_0 (i : S24x24.Idx) (q : dot_S8x24_S8x24_S24x24_0_0_1_1_n_n.contr.Idx) :
    (dot_S8x24_S8x24_S24x24_0_0_1_1_n_n.rhsIdx i q 0).val = (q ⟨0, by decide⟩).val :=
  dot_S8x24_S8x24_S24x24_0_0_1_1_n_n.rhsIdx_val_of_single rfl i q
theorem rhs_outer_1 (i : S24x24.Idx) (q : dot_S8x24_S8x24_S24x24_0_0_1_1_n_n.contr.Idx) :
    (dot_S8x24_S8x24_S24x24_0_0_1_1_n_n.rhsIdx i q 1).val = (i 1).val := by
  unfold DotDims.rhsIdx
  rw [dif_neg (show ¬(1 : Fin S8x24.rank) ∈ dot_S8x24_S8x24_S24x24_0_0_1_1_n_n.rhsBatch by decide), dif_pos (show (1 : Fin S8x24.rank) ∈ dot_S8x24_S8x24_S24x24_0_0_1_1_n_n.rhsNonContracting by decide)]
  rfl
/-- The product read at an entry: the sum over the one contracted axis. -/
theorem outer_apply (l : FVec Ideal S8x24 .f32) (r : FVec Ideal S8x24 .f32) (i : S24x24.Idx) :
    Host.dotGeneral (F := Ideal) dot_S8x24_S8x24_S24x24_0_0_1_1_n_n none l r i = ∑ k : Fin 8, l (ix2 k (i 0)) * r (ix2 k (i 1)) := by
  simp only [Host.dotGeneral]
  rw [Ideal.dotGeneral_apply, ← Equiv.sum_comp (ValueIdx.contrEquiv1 dot_S8x24_S8x24_S24x24_0_0_1_1_n_n 8 rfl rfl).symm]
  refine Finset.sum_congr rfl fun k _ => ?_
  have hk := ValueIdx.contrEquiv1_symm_val dot_S8x24_S8x24_S24x24_0_0_1_1_n_n 8 rfl rfl k
  have el : dot_S8x24_S8x24_S24x24_0_0_1_1_n_n.lhsIdx i ((ValueIdx.contrEquiv1 dot_S8x24_S8x24_S24x24_0_0_1_1_n_n 8 rfl rfl).symm k) = ix2 k (i 0) := funext fun a => Fin.ext (by
    match a with
    | ⟨0, _⟩ => exact (lhs_outer_0 _ _).trans hk
    | ⟨1, _⟩ => exact lhs_outer_1 _ _)
  have er : dot_S8x24_S8x24_S24x24_0_0_1_1_n_n.rhsIdx i ((ValueIdx.contrEquiv1 dot_S8x24_S8x24_S24x24_0_0_1_1_n_n 8 rfl rfl).symm k) = ix2 k (i 1) := funext fun a => Fin.ext (by
    match a with
    | ⟨0, _⟩ => exact (rhs_outer_0 _ _).trans hk
    | ⟨1, _⟩ => exact rhs_outer_1 _ _)
  rw [el, er]
  rfl

theorem lhs_fold_0 (i : S24x2048.Idx) (q : dot_S24x24_S24x2048_S24x2048_1_0_0_1_n_n.contr.Idx) :
    (dot_S24x24_S24x2048_S24x2048_1_0_0_1_n_n.lhsIdx i q 0).val = (i 0).val := by
  unfold DotDims.lhsIdx
  rw [dif_neg (show ¬(0 : Fin S24x24.rank) ∈ dot_S24x24_S24x2048_S24x2048_1_0_0_1_n_n.lhsBatch by decide), dif_pos (show (0 : Fin S24x24.rank) ∈ dot_S24x24_S24x2048_S24x2048_1_0_0_1_n_n.lhsNonContracting by decide)]
  rfl
theorem lhs_fold_1 (i : S24x2048.Idx) (q : dot_S24x24_S24x2048_S24x2048_1_0_0_1_n_n.contr.Idx) :
    (dot_S24x24_S24x2048_S24x2048_1_0_0_1_n_n.lhsIdx i q 1).val = (q ⟨0, by decide⟩).val :=
  dot_S24x24_S24x2048_S24x2048_1_0_0_1_n_n.lhsIdx_val_of_single rfl i q
theorem rhs_fold_0 (i : S24x2048.Idx) (q : dot_S24x24_S24x2048_S24x2048_1_0_0_1_n_n.contr.Idx) :
    (dot_S24x24_S24x2048_S24x2048_1_0_0_1_n_n.rhsIdx i q 0).val = (q ⟨0, by decide⟩).val :=
  dot_S24x24_S24x2048_S24x2048_1_0_0_1_n_n.rhsIdx_val_of_single rfl i q
theorem rhs_fold_1 (i : S24x2048.Idx) (q : dot_S24x24_S24x2048_S24x2048_1_0_0_1_n_n.contr.Idx) :
    (dot_S24x24_S24x2048_S24x2048_1_0_0_1_n_n.rhsIdx i q 1).val = (i 1).val := by
  unfold DotDims.rhsIdx
  rw [dif_neg (show ¬(1 : Fin S24x2048.rank) ∈ dot_S24x24_S24x2048_S24x2048_1_0_0_1_n_n.rhsBatch by decide), dif_pos (show (1 : Fin S24x2048.rank) ∈ dot_S24x24_S24x2048_S24x2048_1_0_0_1_n_n.rhsNonContracting by decide)]
  rfl
/-- The product read at an entry: the sum over the one contracted axis. -/
theorem fold_apply (l : FVec Ideal S24x24 .f32) (r : FVec Ideal S24x2048 .f32) (i : S24x2048.Idx) :
    Host.dotGeneral (F := Ideal) dot_S24x24_S24x2048_S24x2048_1_0_0_1_n_n none l r i = ∑ k : Fin 24, l (ix2 (i 0) k) * r (ix2 k (i 1)) := by
  simp only [Host.dotGeneral]
  rw [Ideal.dotGeneral_apply, ← Equiv.sum_comp (ValueIdx.contrEquiv1 dot_S24x24_S24x2048_S24x2048_1_0_0_1_n_n 24 rfl rfl).symm]
  refine Finset.sum_congr rfl fun k _ => ?_
  have hk := ValueIdx.contrEquiv1_symm_val dot_S24x24_S24x2048_S24x2048_1_0_0_1_n_n 24 rfl rfl k
  have el : dot_S24x24_S24x2048_S24x2048_1_0_0_1_n_n.lhsIdx i ((ValueIdx.contrEquiv1 dot_S24x24_S24x2048_S24x2048_1_0_0_1_n_n 24 rfl rfl).symm k) = ix2 (i 0) k := funext fun a => Fin.ext (by
    match a with
    | ⟨0, _⟩ => exact lhs_fold_0 _ _
    | ⟨1, _⟩ => exact (lhs_fold_1 _ _).trans hk)
  have er : dot_S24x24_S24x2048_S24x2048_1_0_0_1_n_n.rhsIdx i ((ValueIdx.contrEquiv1 dot_S24x24_S24x2048_S24x2048_1_0_0_1_n_n 24 rfl rfl).symm k) = ix2 k (i 1) := funext fun a => Fin.ext (by
    match a with
    | ⟨0, _⟩ => exact (rhs_fold_0 _ _).trans hk
    | ⟨1, _⟩ => exact rhs_fold_1 _ _)
  rw [el, er]
  rfl

theorem lhs_state_0 (i : S8x24.Idx) (q : dot_S8x24_S24x24_S8x24_1_0_0_1_n_n.contr.Idx) :
    (dot_S8x24_S24x24_S8x24_1_0_0_1_n_n.lhsIdx i q 0).val = (i 0).val := by
  unfold DotDims.lhsIdx
  rw [dif_neg (show ¬(0 : Fin S8x24.rank) ∈ dot_S8x24_S24x24_S8x24_1_0_0_1_n_n.lhsBatch by decide), dif_pos (show (0 : Fin S8x24.rank) ∈ dot_S8x24_S24x24_S8x24_1_0_0_1_n_n.lhsNonContracting by decide)]
  rfl
theorem lhs_state_1 (i : S8x24.Idx) (q : dot_S8x24_S24x24_S8x24_1_0_0_1_n_n.contr.Idx) :
    (dot_S8x24_S24x24_S8x24_1_0_0_1_n_n.lhsIdx i q 1).val = (q ⟨0, by decide⟩).val :=
  dot_S8x24_S24x24_S8x24_1_0_0_1_n_n.lhsIdx_val_of_single rfl i q
theorem rhs_state_0 (i : S8x24.Idx) (q : dot_S8x24_S24x24_S8x24_1_0_0_1_n_n.contr.Idx) :
    (dot_S8x24_S24x24_S8x24_1_0_0_1_n_n.rhsIdx i q 0).val = (q ⟨0, by decide⟩).val :=
  dot_S8x24_S24x24_S8x24_1_0_0_1_n_n.rhsIdx_val_of_single rfl i q
theorem rhs_state_1 (i : S8x24.Idx) (q : dot_S8x24_S24x24_S8x24_1_0_0_1_n_n.contr.Idx) :
    (dot_S8x24_S24x24_S8x24_1_0_0_1_n_n.rhsIdx i q 1).val = (i 1).val := by
  unfold DotDims.rhsIdx
  rw [dif_neg (show ¬(1 : Fin S24x24.rank) ∈ dot_S8x24_S24x24_S8x24_1_0_0_1_n_n.rhsBatch by decide), dif_pos (show (1 : Fin S24x24.rank) ∈ dot_S8x24_S24x24_S8x24_1_0_0_1_n_n.rhsNonContracting by decide)]
  rfl
/-- The product read at an entry: the sum over the one contracted axis. -/
theorem state_apply (l : FVec Ideal S8x24 .f32) (r : FVec Ideal S24x24 .f32) (i : S8x24.Idx) :
    Host.dotGeneral (F := Ideal) dot_S8x24_S24x24_S8x24_1_0_0_1_n_n none l r i = ∑ k : Fin 24, l (ix2 (i 0) k) * r (ix2 k (i 1)) := by
  simp only [Host.dotGeneral]
  rw [Ideal.dotGeneral_apply, ← Equiv.sum_comp (ValueIdx.contrEquiv1 dot_S8x24_S24x24_S8x24_1_0_0_1_n_n 24 rfl rfl).symm]
  refine Finset.sum_congr rfl fun k _ => ?_
  have hk := ValueIdx.contrEquiv1_symm_val dot_S8x24_S24x24_S8x24_1_0_0_1_n_n 24 rfl rfl k
  have el : dot_S8x24_S24x24_S8x24_1_0_0_1_n_n.lhsIdx i ((ValueIdx.contrEquiv1 dot_S8x24_S24x24_S8x24_1_0_0_1_n_n 24 rfl rfl).symm k) = ix2 (i 0) k := funext fun a => Fin.ext (by
    match a with
    | ⟨0, _⟩ => exact lhs_state_0 _ _
    | ⟨1, _⟩ => exact (lhs_state_1 _ _).trans hk)
  have er : dot_S8x24_S24x24_S8x24_1_0_0_1_n_n.rhsIdx i ((ValueIdx.contrEquiv1 dot_S8x24_S24x24_S8x24_1_0_0_1_n_n 24 rfl rfl).symm k) = ix2 k (i 1) := funext fun a => Fin.ext (by
    match a with
    | ⟨0, _⟩ => exact (rhs_state_0 _ _).trans hk
    | ⟨1, _⟩ => exact rhs_state_1 _ _)
  rw [el, er]
  rfl

/-! ## The stages between the launches, over arbitrary arrays -/

/-- The sums `[8, 1, 24]` laid out `[8, 24]` and divided by the sequence length. -/
def meanH (S : FVec Ideal S8x1x24 .f32) : FVec Ideal S8x24 .f32 :=
  Host.divf (F := Ideal) (shapeCast S8x24 S shapeCasts_S8x1x24_S8x24)
    (broadcastInDim S8x24 ![] bcast_S_S8x24 (constant (F := Ideal) S_ .f32 0x45800000#32))

/-- Entry `(b, h)` of the `[8, 24]` layout is entry `(b, 0, h)` of the sums (same row-major position), divided by 4096. -/
theorem meanH_apply (S : FVec Ideal S8x1x24 .f32) (b : Fin 8) (h : Fin 24) :
    meanH S (ix2 b h) = meanOf Q4 (sums S) b h := by
  have e : shapeCast S8x24 S shapeCasts_S8x1x24_S8x24 (ix2 b h) = S (ix3 b (0 : Fin 1) h) :=
    shapeCast_apply S _ _ _ (by
      rw [Shape.rowMajor_val_three, Shape.rowMajor_val_two]
      show (b.val * 1 + 0) * 24 + h.val = b.val * 24 + h.val
      omega)
  show Ideal.div (shapeCast S8x24 S shapeCasts_S8x1x24_S8x24 (ix2 b h)) (Ideal.ofBits .f32 0x45800000#32)
    = Ideal.div (S (ix3 b (0 : Fin 1) h)) (Ideal.ofBits .f32 0x45800000#32)
  rw [e]

theorem c2_meanH (S : FVec Ideal S8x1x24 .f32) : c2 (meanH S) = meanOf Q4 (sums S) :=
  funext fun b => funext fun h => meanH_apply S b h

/-- The plastic matrix plus the decayed trace plus the learning rate times the batch average of the outer products. -/
def effH (A3 A5 : FVec Ideal S24x24 .f32) (P Q : FVec Ideal S8x24 .f32) : FVec Ideal S24x24 .f32 :=
  addf (F := Ideal) A3 (addf (F := Ideal)
    (mulf (F := Ideal) A5 (broadcastInDim S24x24 ![] bcast_S_S24x24 (constant (F := Ideal) S_ .f32 0x3F7FBE77#32)))
    (mulf (F := Ideal)
      (Host.divf (F := Ideal) (Host.dotGeneral (F := Ideal) dot_S8x24_S8x24_S24x24_0_0_1_1_n_n none P Q)
        (broadcastInDim S24x24 ![] bcast_S_S24x24 (constant (F := Ideal) S_ .f32 0x41000000#32)))
      (broadcastInDim S24x24 ![] bcast_S_S24x24 (constant (F := Ideal) S_ .f32 0x3C23D70A#32))))

/-- Entry by entry the sums, products and quotient are the scalar ones, and a broadcast scalar is itself at every entry. -/
theorem effH_apply (A3 A5 : FVec Ideal S24x24 .f32) (P Q : FVec Ideal S8x24 .f32) (i j : Fin 24) :
    effH A3 A5 P Q (ix2 i j) = effW (c2 A3) (c2 A5) Q8 CD CL (c2 P) (c2 Q) i j := by
  show A3 (ix2 i j) + (A5 (ix2 i j) * Ideal.ofBits .f32 0x3F7FBE77#32
      + Ideal.div (Host.dotGeneral (F := Ideal) dot_S8x24_S8x24_S24x24_0_0_1_1_n_n none P Q (ix2 i j)) (Ideal.ofBits .f32 0x41000000#32)
        * Ideal.ofBits .f32 0x3C23D70A#32)
    = A3 (ix2 i j) + (A5 (ix2 i j) * Ideal.ofBits .f32 0x3F7FBE77#32
      + Ideal.div (∑ b : Fin 8, P (ix2 b i) * Q (ix2 b j)) (Ideal.ofBits .f32 0x41000000#32) * Ideal.ofBits .f32 0x3C23D70A#32)
  rw [outer_apply]

theorem c2_effH (A3 A5 : FVec Ideal S24x24 .f32) (P Q : FVec Ideal S8x24 .f32) :
    c2 (effH A3 A5 P Q) = effW (c2 A3) (c2 A5) Q8 CD CL (c2 P) (c2 Q) :=
  funext fun i => funext fun j => effH_apply A3 A5 P Q i j

/-- The state: the mean times the effective weight. -/
def stateH (P : FVec Ideal S8x24 .f32) (E : FVec Ideal S24x24 .f32) : FVec Ideal S8x24 .f32 :=
  Host.dotGeneral (F := Ideal) dot_S8x24_S24x24_S8x24_1_0_0_1_n_n none P E

theorem stateH_apply (P : FVec Ideal S8x24 .f32) (E : FVec Ideal S24x24 .f32) (b : Fin 8) (h : Fin 24) :
    stateH P E (ix2 b h) = stateK (c2 P) (c2 E) b h :=
  state_apply P E (ix2 b h)

/-- The folded weight: the effective weight against the transposed output matrix. -/
def combH (E : FVec Ideal S24x24 .f32) (A4 : FVec Ideal S2048x24 .f32) : FVec Ideal S24x2048 .f32 :=
  Host.dotGeneral (F := Ideal) dot_S24x24_S24x2048_S24x2048_1_0_0_1_n_n none E
    (transpose S24x2048 [1, 0] A4 transposes_S2048x24_S24x2048_1_0)

/-- The transposed matrix at `(e, d)` is the matrix at `(d, e)`. -/
theorem combH_apply (E : FVec Ideal S24x24 .f32) (A4 : FVec Ideal S2048x24 .f32) (h : Fin 24) (d : Fin 2048) :
    combH E A4 (ix2 h d) = combined (c2 E) (c2 A4) h d := by
  refine (fold_apply E _ (ix2 h d)).trans ?_
  refine Finset.sum_congr rfl fun e _ => ?_
  show E (ix2 h e) * transpose S24x2048 [1, 0] A4 transposes_S2048x24_S24x2048_1_0 (ix2 e d) = E (ix2 h e) * A4 (ix2 d e)
  rw [transpose_apply [1, 0] A4 transposes_S2048x24_S24x2048_1_0 (ix2 e d) (ix2 d e)
    (fun c => match c with | ⟨0, _⟩ => rfl | ⟨1, _⟩ => rfl)]

/-! ## The two arrays the second launch reads -/

/-- The state `%19`: the first mean times the effective weight. -/
theorem host_v19 : (StableHlo.after (hostOps1 (F := Ideal)) W (Proc.devRef .tc main_v19) : S8x24.Idx → EReal)
    = fun i => stateK (meanOf Q4 (sums (W (Proc.devRef .tc main_v1_1) : S8x1x24.Idx → EReal))) (effHost W) (i 0) (i 1) := by
  have e : (StableHlo.after (hostOps1 (F := Ideal)) W (Proc.devRef .tc main_v19) : S8x24.Idx → EReal)
      = stateH (meanH (W (Proc.devRef .tc main_v1_1)))
          (effH (W (Proc.devRef .tc main_arg3)) (W (Proc.devRef .tc main_arg5))
            (meanH (W (Proc.devRef .tc main_v1_1))) (meanH (W (Proc.devRef .tc main_v1_2)))) := by
    after_results_simp
    rfl
  rw [e]
  funext i
  obtain ⟨b, h, rfl⟩ : ∃ b h, i = ix2 b h := ⟨i 0, i 1, eq_ix2 i⟩
  refine (stateH_apply _ _ b h).trans ?_
  rw [c2_effH, c2_meanH, c2_meanH]
  rfl

/-- The folded weight `%18`: the effective weight against the output matrix's rows. -/
theorem host_v18 : (StableHlo.after (hostOps1 (F := Ideal)) W (Proc.devRef .tc main_v18) : S24x2048.Idx → EReal)
    = fun i => combined (effHost W) (c2 (W (Proc.devRef .tc main_arg4) : S2048x24.Idx → EReal)) (i 0) (i 1) := by
  have e : (StableHlo.after (hostOps1 (F := Ideal)) W (Proc.devRef .tc main_v18) : S24x2048.Idx → EReal)
      = combH (effH (W (Proc.devRef .tc main_arg3)) (W (Proc.devRef .tc main_arg5))
            (meanH (W (Proc.devRef .tc main_v1_1))) (meanH (W (Proc.devRef .tc main_v1_2))))
          (W (Proc.devRef .tc main_arg4)) := by
    after_results_simp
    rfl
  rw [e]
  funext i
  obtain ⟨h, d, rfl⟩ : ∃ h d, i = ix2 h d := ⟨i 0, i 1, eq_ix2 i⟩
  refine (combH_apply _ _ h d).trans ?_
  rw [c2_effH, c2_meanH, c2_meanH]
  rfl

/-- The stored projections `%1#0` are not touched between the launches. -/
theorem host_v1_0 : StableHlo.after (hostOps1 (F := Ideal)) W (Proc.devRef .tc main_v1_0) = W (Proc.devRef .tc main_v1_0) := by
  after_results

/-- The stacked projection matrices `%0`: rows below 24 from the first, the others from the second. -/
theorem host_v0_top (h : Fin 24) (d : Fin 2048) :
    (StableHlo.after (hostOps0 (F := Ideal)) W (Proc.devRef .tc main_v0) : S48x2048.Idx → EReal) (ix2 ⟨h.val, by omega⟩ d)
      = (W (Proc.devRef .tc main_arg1) : S24x2048.Idx → EReal) (ix2 h d) := by
  after_results
  exact concatenate_pair_apply_left (t := S48x2048) (s₁ := S24x2048) (s₂ := S24x2048) 0 _ _ _ _ rfl (ix2 h d)
    (fun b => by match b with | ⟨0, _⟩ => rfl | ⟨1, _⟩ => rfl)

theorem host_v0_bot (h : Fin 24) (d : Fin 2048) :
    (StableHlo.after (hostOps0 (F := Ideal)) W (Proc.devRef .tc main_v0) : S48x2048.Idx → EReal) (ix2 ⟨24 + h.val, by omega⟩ d)
      = (W (Proc.devRef .tc main_arg2) : S24x2048.Idx → EReal) (ix2 h d) := by
  after_results
  exact concatenate_pair_apply_right (t := S48x2048) (s₁ := S24x2048) (s₂ := S24x2048) 0 _ _ _ _ rfl rfl (ix2 h d)
    (fun b hb => by
      match b, hb with
      | ⟨0, _⟩, hb => exact (hb (Fin.ext rfl)).elim
      | ⟨1, _⟩, _ => rfl)
    (by show h.val + 24 = 24 + h.val; omega)

/-- The tokens `%arg0` are not touched before the first launch. -/
theorem host_arg0 : StableHlo.after (hostOps0 (F := Ideal)) W (Proc.devRef .tc main_arg0) = W (Proc.devRef .tc main_arg0) := by
  after_results

end Cert.KernelIdeal.HostValue

end
-- ==== Proof.KernelValue.lean ====
/-
  The kernel program's two results as functions of its arguments.

  The fold of the four stretches is opened from the end: the modulation is what the second launch leaves, read over the
  stored projections (what the first launch leaves) and the folded weight (host arithmetic over the two arrays of
  feature sums the first launch leaves); the state is host arithmetic over the same sums.  The stacked projection
  matrices are the two arguments; every argument reaches the stretch that reads it unchanged.  Together: the blocked
  arrangement of the layer.
-/
import proofs.«113000_j17282948399130_2_alg».proof.Proof.KernelRun
import proofs.«113000_j17282948399130_2_alg».proof.Proof.Region0
import proofs.«113000_j17282948399130_2_alg».proof.Proof.Region1
import proofs.«113000_j17282948399130_2_alg».proof.Proof.KernelHost
import proofs.«113000_j17282948399130_2_alg».proof.Proof.HebbSpec

set_option maxRecDepth 16384

noncomputable section

open scoped BigOperators

namespace Cert.KernelIdeal.KValue

open Cert.KernelIdeal Cert.KernelIdeal.Gen Cert.Hebb Idealize.ShloMosaic Idealize.ShloMosaic.TcCoe Idealize.ShloMosaic.ValueIdx
  Idealize.ShloMosaic.StableHlo Idealize.SL.Sem
open Cert.KernelIdeal.Region0 Cert.KernelIdeal.Region1 Cert.KernelIdeal.HostValue

variable (m : (ℓ : Loc nD τ sig) → Buf (Elt Ideal) ℓ) (ρ : Dev nD → PrngReg) (c : Dev nD)

/-- The six arguments by coordinates. -/
abbrev X : Fin 8 → Fin 4096 → Fin 2048 → EReal := c3 (m ((c.tc : Thread nD τ).loc main_arg0) : S8x4096x2048.Idx → EReal)
abbrev Wa : Fin 24 → Fin 2048 → EReal := c2 (m ((c.tc : Thread nD τ).loc main_arg1) : S24x2048.Idx → EReal)
abbrev Wb : Fin 24 → Fin 2048 → EReal := c2 (m ((c.tc : Thread nD τ).loc main_arg2) : S24x2048.Idx → EReal)
abbrev Wpl : Fin 24 → Fin 24 → EReal := c2 (m ((c.tc : Thread nD τ).loc main_arg3) : S24x24.Idx → EReal)
abbrev Wout : Fin 2048 → Fin 24 → EReal := c2 (m ((c.tc : Thread nD τ).loc main_arg4) : S2048x24.Idx → EReal)
abbrev Tr : Fin 24 → Fin 24 → EReal := c2 (m ((c.tc : Thread nD τ).loc main_arg5) : S24x24.Idx → EReal)

/-! ## Before the first launch -/

theorem entry_tokens : tokens (V1 m ρ) c = X m c := by
  unfold tokens X
  exact congrArg c3 (host_arg0 (W0 m ρ c))

theorem entry_top : wTop (stacked (V1 m ρ) c) = Wa m c := by
  funext h d
  exact host_v0_top (W0 m ρ c) h d

theorem entry_bot : wBot (stacked (V1 m ρ) c) = Wb m c := by
  funext h d
  exact host_v0_bot (W0 m ρ c) h d

/-! ## Between the launches -/

/-- An argument no stretch writes is, after the first launch, as launched. -/
theorem mid_arg3 : (W2 m ρ c (Proc.devRef .tc main_arg3) : S24x24.Idx → EReal) = m ((c.tc : Thread nD τ).loc main_arg3) :=
  (W2_of_ne m ρ c main_arg3 (by decide)).trans (by
    show StableHlo.after hostOps0 (W0 m ρ c) (Proc.devRef .tc main_arg3) = _
    after_results)
theorem mid_arg4 : (W2 m ρ c (Proc.devRef .tc main_arg4) : S2048x24.Idx → EReal) = m ((c.tc : Thread nD τ).loc main_arg4) :=
  (W2_of_ne m ρ c main_arg4 (by decide)).trans (by
    show StableHlo.after hostOps0 (W0 m ρ c) (Proc.devRef .tc main_arg4) = _
    after_results)
theorem mid_arg5 : (W2 m ρ c (Proc.devRef .tc main_arg5) : S24x24.Idx → EReal) = m ((c.tc : Thread nD τ).loc main_arg5) :=
  (W2_of_ne m ρ c main_arg5 (by decide)).trans (by
    show StableHlo.after hostOps0 (W0 m ρ c) (Proc.devRef .tc main_arg5) = _
    after_results)

/-- The two arrays of feature sums the first launch leaves. -/
theorem mid_sums_top : sums (W2 m ρ c (Proc.devRef .tc main_v1_1) : S8x1x24.Idx → EReal) = sumK (X m c) (Wa m c) := by
  funext b h
  unfold sums
  rw [show (W2 m ρ c (Proc.devRef .tc main_v1_1) : S8x1x24.Idx → EReal) = _ from (W2_arr m ρ c 3).trans (final0_3 (V1 m ρ) c)]
  rw [entry_tokens, entry_top]
  rfl

theorem mid_sums_bot : sums (W2 m ρ c (Proc.devRef .tc main_v1_2) : S8x1x24.Idx → EReal) = sumK (X m c) (Wb m c) := by
  funext b h
  unfold sums
  rw [show (W2 m ρ c (Proc.devRef .tc main_v1_2) : S8x1x24.Idx → EReal) = _ from (W2_arr m ρ c 4).trans (final0_4 (V1 m ρ) c)]
  rw [entry_tokens, entry_bot]
  rfl

/-- The stored projections the first launch leaves. -/
theorem mid_proj : c3 (W2 m ρ c (Proc.devRef .tc main_v1_0) : S8x24x4096.Idx → EReal) = projT (X m c) (Wa m c) := by
  rw [show (W2 m ρ c (Proc.devRef .tc main_v1_0) : S8x24x4096.Idx → EReal) = _ from (W2_arr m ρ c 2).trans (final0_2 (V1 m ρ) c)]
  rw [entry_tokens, entry_top]
  rfl

/-- The effective weight the host forms is the blocked arrangement's. -/
theorem mid_eff : effHost (W2 m ρ c) = effK (X m c) (Wa m c) (Wb m c) (Wpl m c) (Tr m c) := by
  unfold effHost effK
  rw [mid_sums_top, mid_sums_bot, mid_arg3, mid_arg5]

/-! ## The two results -/

/-- The state. -/
theorem state_eq : (W4 m ρ c (Proc.devRef .tc main_v19) : S8x24.Idx → EReal)
    = fun i => stateOutK (X m c) (Wa m c) (Wb m c) (Wpl m c) (Tr m c) (i 0) (i 1) := by
  refine (W4_of_ne m ρ c main_v19 (by decide)).trans ?_
  refine (host_v19 (W2 m ρ c)).trans ?_
  rw [mid_sums_top, mid_eff]
  rfl

/-- The modulation. -/
theorem mod_eq : (W4 m ρ c (Proc.devRef .tc main_v20) : S8x4096x2048.Idx → EReal)
    = fun i => modOutK (X m c) (Wa m c) (Wb m c) (Wpl m c) (Tr m c) (Wout m c) (i 0) (i 1) (i 2) := by
  refine (W4_arr m ρ c 2).trans ?_
  refine (final1 (V3 m ρ) c).trans ?_
  have hp : c3 (V3 m ρ c main_v1_0 : S8x24x4096.Idx → EReal) = projT (X m c) (Wa m c) := by
    rw [show (V3 m ρ c main_v1_0 : S8x24x4096.Idx → EReal) = W2 m ρ c (Proc.devRef .tc main_v1_0) from host_v1_0 (W2 m ρ c)]
    exact mid_proj m ρ c
  have hw : c2 (V3 m ρ c main_v18 : S24x2048.Idx → EReal)
      = combined (effK (X m c) (Wa m c) (Wb m c) (Wpl m c) (Tr m c)) (Wout m c) := by
    rw [show (V3 m ρ c main_v18 : S24x2048.Idx → EReal) = _ from host_v18 (W2 m ρ c)]
    rw [mid_eff, mid_arg4]
    rfl
  rw [hp, hw]
  rfl

end Cert.KernelIdeal.KValue

end
-- ==== Proof.RefValue.lean ====
/-
  The reference program's two results, read entry by entry: they are the whole-sequence arrangement of the layer.
-/
import proofs.«113000_j17282948399130_2_alg».proof.Proof.Gen.ReferenceIdeal.Read
import proofs.«113000_j17282948399130_2_alg».proof.Proof.HebbSpec

noncomputable section

open scoped BigOperators

namespace Cert.ReferenceIdeal.RefValue

open Cert.ReferenceIdeal Cert.ReferenceIdeal.Read Cert.Hebb Idealize.ShloMosaic Idealize.ShloMosaic.ValueIdx

variable (x0 : (⟨S8x4096x2048, .f32⟩ : BufTy).Contents (Elt Ideal)) (x1 x2 : (⟨S24x2048, .f32⟩ : BufTy).Contents (Elt Ideal))
  (x3 : (⟨S24x24, .f32⟩ : BufTy).Contents (Elt Ideal)) (x4 : (⟨S2048x24, .f32⟩ : BufTy).Contents (Elt Ideal))
  (x5 : (⟨S24x24, .f32⟩ : BufTy).Contents (Elt Ideal))

/-! ## The composed index functions, by coordinates -/

theorem lidx0_eq (i : S8x4096x24.Idx) (k : Fin 2048) : lidx_main_v0 i k = ix3 (i 0) (i 1) k :=
  funext fun a => Fin.ext (by match a with | ⟨0, _⟩ => rfl | ⟨1, _⟩ => rfl | ⟨2, _⟩ => rfl)
theorem ridx0_eq (i : S8x4096x24.Idx) (k : Fin 2048) : ridx_main_v0 i k = ix2 (i 2) k :=
  funext fun a => Fin.ext (by match a with | ⟨0, _⟩ => rfl | ⟨1, _⟩ => rfl)
theorem lidx1_eq (i : S8x4096x24.Idx) (k : Fin 2048) : lidx_main_v1 i k = ix3 (i 0) (i 1) k :=
  funext fun a => Fin.ext (by match a with | ⟨0, _⟩ => rfl | ⟨1, _⟩ => rfl | ⟨2, _⟩ => rfl)
theorem ridx1_eq (i : S8x4096x24.Idx) (k : Fin 2048) : ridx_main_v1 i k = ix2 (i 2) k :=
  funext fun a => Fin.ext (by match a with | ⟨0, _⟩ => rfl | ⟨1, _⟩ => rfl)
theorem idx2_eq (i : S8x24.Idx) (k : Fin 4096) : idx_main_v2 i k = ix3 (i 0) k (i 1) :=
  funext fun a => Fin.ext (by match a with | ⟨0, _⟩ => rfl | ⟨1, _⟩ => rfl | ⟨2, _⟩ => rfl)
theorem idx5_eq (i : S8x24.Idx) (k : Fin 4096) : idx_main_v5 i k = ix3 (i 0) k (i 1) :=
  funext fun a => Fin.ext (by match a with | ⟨0, _⟩ => rfl | ⟨1, _⟩ => rfl | ⟨2, _⟩ => rfl)

/-! ## The two projections -/

/-- The first projection, entry by entry. -/
theorem ref_v0 : val_main_v0 (F := Ideal) x0 x1 = fun i => proj (c3 x0) (c2 x1) (i 0) (i 1) (i 2) := by
  funext i
  rw [val_main_v0_apply]
  unfold proj c3 c2
  refine Finset.sum_congr rfl fun k _ => ?_
  rw [lidx0_eq, ridx0_eq]
  rfl

/-- The second projection, entry by entry. -/
theorem ref_v1 : val_main_v1 (F := Ideal) x0 x2 = fun i => proj (c3 x0) (c2 x2) (i 0) (i 1) (i 2) := by
  funext i
  rw [val_main_v1_apply]
  unfold proj c3 c2
  refine Finset.sum_congr rfl fun k _ => ?_
  rw [lidx1_eq, ridx1_eq]
  rfl

/-! ## The sums over the sequence and the feature means -/

/-- The first projection summed over the sequence. -/
theorem ref_v2 : val_main_v2 (F := Ideal) x0 x1 = fun i => sumR (c3 x0) (c2 x1) (i 0) (i 1) := by
  funext i
  rw [val_main_v2_apply, ref_v0, val_main_cst_apply, Ideal.ofBits_def, Ideal.ofBits_zero_f32]
  unfold sumR
  refine congrArg (0 + ·) (Finset.sum_congr rfl fun k _ => ?_)
  rw [idx2_eq]

/-- The second projection summed over the sequence. -/
theorem ref_v5 : val_main_v5 (F := Ideal) x0 x2 = fun i => sumR (c3 x0) (c2 x2) (i 0) (i 1) := by
  funext i
  rw [val_main_v5_apply, ref_v1, val_main_cst_1_apply, Ideal.ofBits_def, Ideal.ofBits_zero_f32]
  unfold sumR
  refine congrArg (0 + ·) (Finset.sum_congr rfl fun k _ => ?_)
  rw [idx5_eq]

/-- The divisor by the sequence length, at every entry. -/
theorem ref_v3 : val_main_v3 (F := Ideal) = fun _ => Q4 := by
  funext i
  rw [val_main_v3_apply, val_main_cst_0_apply]
  rfl

theorem ref_v6 : val_main_v6 (F := Ideal) = fun _ => Q4 := by
  funext i
  rw [val_main_v6_apply, val_main_cst_2_apply]
  rfl

/-- The mean of the first features over the sequence. -/
theorem ref_v4 : val_main_v4 (F := Ideal) x0 x1 = fun i => meanOf Q4 (sumR (c3 x0) (c2 x1)) (i 0) (i 1) := by
  funext i
  rw [val_main_v4_apply, ref_v2, ref_v3]
  rfl

/-- The mean of the second features over the sequence. -/
theorem ref_v7 : val_main_v7 (F := Ideal) x0 x2 = fun i => meanOf Q4 (sumR (c3 x0) (c2 x2)) (i 0) (i 1) := by
  funext i
  rw [val_main_v7_apply, ref_v5, ref_v6]
  rfl

/-! ## The effective weight -/

/-- The outer products of the two means, summed over the batch. -/
theorem ref_v8 : val_main_v8 (F := Ideal) x0 x1 x2
    = fun i => ∑ b, meanOf Q4 (sumR (c3 x0) (c2 x1)) b (i 0) * meanOf Q4 (sumR (c3 x0) (c2 x2)) b (i 1) := by
  funext i
  rw [val_main_v8_apply, ref_v4, ref_v7]
  refine Finset.sum_congr rfl fun k _ => ?_
  rfl

theorem ref_v9 : val_main_v9 (F := Ideal) = fun _ => Q8 := by
  funext i
  rw [val_main_v9_apply, val_main_cst_3_apply]
  rfl

theorem ref_v11 : val_main_v11 (F := Ideal) = fun _ => CD := by
  funext i
  rw [val_main_v11_apply, val_main_cst_4_apply]
  rfl

theorem ref_v13 : val_main_v13 (F := Ideal) = fun _ => CL := by
  funext i
  rw [val_main_v13_apply, val_main_cst_5_apply]
  rfl

/-- The effective weight: the plastic matrix plus the decayed trace plus the scaled batch average. -/
theorem ref_v16 : val_main_v16 (F := Ideal) x0 x1 x2 x3 x5
    = fun i => effR (c3 x0) (c2 x1) (c2 x2) (c2 x3) (c2 x5) (i 0) (i 1) := by
  funext i
  rw [val_main_v16_apply, val_main_v15_apply, val_main_v12_apply, val_main_v14_apply, val_main_v10_apply,
    ref_v8, ref_v9, ref_v11, ref_v13]
  have h3 : x3 i = c2 x3 (i 0) (i 1) := congrArg x3 (eq_ix2 i)
  have h5 : x5 i = c2 x5 (i 0) (i 1) := congrArg x5 (eq_ix2 i)
  rw [h3, h5]
  rfl

/-! ## The plastic activations and the two results -/

theorem ridx21_eq (i : S8x4096x2048.Idx) (k : Fin 24) : ridx_main_v21 i k = ix2 (i 2) k :=
  funext fun a => Fin.ext (by match a with | ⟨0, _⟩ => rfl | ⟨1, _⟩ => rfl)

/-- The plastic activations: the first projection through the effective weight. -/
theorem ref_v17 : val_main_v17 (F := Ideal) x0 x1 x2 x3 x5
    = fun i => plastic (proj (c3 x0) (c2 x1)) (effR (c3 x0) (c2 x1) (c2 x2) (c2 x3) (c2 x5)) (i 0) (i 1) (i 2) := by
  funext i
  rw [val_main_v17_apply, ref_v0, ref_v16]
  unfold plastic
  refine Finset.sum_congr rfl fun k _ => ?_
  rfl

theorem ref_v19 : val_main_v19 (F := Ideal) = fun _ => Q4 := by
  funext i
  rw [val_main_v19_apply, val_main_cst_7_apply]
  rfl

/-- The reference's modulation, entry by entry. -/
theorem ref_mod : val_main_v21 (F := Ideal) x0 x1 x2 x3 x4 x5
    = fun i => modOutR (c3 x0) (c2 x1) (c2 x2) (c2 x3) (c2 x5) (c2 x4) (i 0) (i 1) (i 2) := by
  funext i
  rw [val_main_v21_apply, ref_v17]
  unfold modOutR modR
  refine Finset.sum_congr rfl fun k _ => ?_
  rw [ridx21_eq]
  rfl

/-- The reference's state, entry by entry. -/
theorem ref_state : val_main_v20 (F := Ideal) x0 x1 x2 x3 x5
    = fun i => stateOutR (c3 x0) (c2 x1) (c2 x2) (c2 x3) (c2 x5) (i 0) (i 1) := by
  funext i
  rw [val_main_v20_apply, val_main_v18_apply, ref_v17, val_main_cst_6_apply, Ideal.ofBits_def,
    Ideal.ofBits_zero_f32, ref_v19, Ideal.hostDivf_def]
  unfold stateOutR stateR
  refine congrArg (fun s => Ideal.div (0 + s) Q4) (Finset.sum_congr rfl fun k _ => ?_)
  rfl

end Cert.ReferenceIdeal.RefValue

end
-- ==== Proof.HebbLaw.lean ====
/-
  The two arrangements of the Hebbian plasticity layer agree on real inputs.
-/
import proofs.«113000_j17282948399130_2_alg».proof.Proof.HebbSpec
import Mathlib.Algebra.BigOperators.Fin
import Mathlib.Data.EReal.Operations
import Mathlib.Tactic.Ring
import Mathlib.Tactic.NormNum

noncomputable section

open scoped BigOperators

namespace Cert.Hebb

open Idealize.ShloMosaic

/-- A pattern whose exponent field is not all ones denotes a real: the value is then one of the two finite
    branches (subnormal or normal), each the coercion of a real. -/
theorem ieee_real (e m : Nat) {w : Nat} (b : BitVec w) (h : (b.extractLsb' m e).toNat ≠ 2 ^ e - 1) :
    ∃ r : ℝ, Ideal.ieee e m b = (r : EReal) := by
  unfold Ideal.ieee
  simp only [if_neg h]
  split_ifs <;> exact ⟨_, rfl⟩

/-- The divisors are the reals 4096 and 8; the decay and the learning rate are some reals. -/
theorem Q4_eq : Q4 = ((4096 : ℝ) : EReal) := by
  unfold Q4
  simp [Ideal.ofBits, Ideal.ieee, -EReal.coe_mul]; norm_num
theorem Q8_eq : Q8 = ((8 : ℝ) : EReal) := by
  unfold Q8
  simp [Ideal.ofBits, Ideal.ieee, -EReal.coe_mul]; norm_num
theorem CD_real : ∃ r : ℝ, CD = (r : EReal) := by
  unfold CD
  exact ieee_real 8 23 (0x3F7FBE77#32 : BitVec 32) (by decide)
theorem CL_real : ∃ r : ℝ, CL = (r : EReal) := by
  unfold CL
  exact ieee_real 8 23 (0x3C23D70A#32 : BitVec 32) (by decide)

/-! ### Regrouping a sum over the sequence into four blocks -/

/-- A sum over 4096 indices is the sum over 4 blocks of the sums over the 1024 indices of each block. -/
theorem sum_blocks {M : Type*} [AddCommMonoid M] (f : Fin 4096 → M) :
    ∑ t, f t = ∑ k : Fin 4, ∑ j : Fin 1024, f (tok k j) := by
  calc ∑ t, f t = ∑ p : Fin 4 × Fin 1024, f (finProdFinEquiv p) :=
        (Equiv.sum_comp (finProdFinEquiv (m := 4) (n := 1024)) f).symm
    _ = ∑ k : Fin 4, ∑ j : Fin 1024, f (tok k j) := by
        rw [Fintype.sum_prod_type]
        refine Finset.sum_congr rfl fun k _ => Finset.sum_congr rfl fun j _ => ?_
        congr 1
        apply Fin.ext
        simp only [finProdFinEquiv, Equiv.coe_fn_mk, tok]
        omega

/-! ### Closure of the reals inside the extended reals -/

theorem real_add {a b : EReal} (ha : ∃ r : ℝ, a = (r : EReal)) (hb : ∃ r : ℝ, b = (r : EReal)) :
    ∃ r : ℝ, a + b = (r : EReal) := by
  obtain ⟨r, rfl⟩ := ha
  obtain ⟨s, rfl⟩ := hb
  exact ⟨r + s, (EReal.coe_add r s).symm⟩

theorem real_mul {a b : EReal} (ha : ∃ r : ℝ, a = (r : EReal)) (hb : ∃ r : ℝ, b = (r : EReal)) :
    ∃ r : ℝ, a * b = (r : EReal) := by
  obtain ⟨r, rfl⟩ := ha
  obtain ⟨s, rfl⟩ := hb
  exact ⟨r * s, (EReal.coe_mul r s).symm⟩

theorem real_zero : ∃ r : ℝ, (0 : EReal) = (r : EReal) := ⟨0, EReal.coe_zero.symm⟩

theorem real_sum {ι : Type*} (s : Finset ι) (f : ι → EReal) (h : ∀ i ∈ s, ∃ r : ℝ, f i = (r : EReal)) :
    ∃ r : ℝ, ∑ i ∈ s, f i = (r : EReal) := by
  classical
  induction s using Finset.induction_on with
  | empty => exact ⟨0, by rw [Finset.sum_empty, EReal.coe_zero]⟩
  | insert a s ha ih =>
    rw [Finset.sum_insert ha]
    exact real_add (h a (Finset.mem_insert_self a s)) (ih fun i hi => h i (Finset.mem_insert_of_mem hi))

theorem real_div_coe {a : EReal} {y : ℝ} (hy : y ≠ 0) (ha : ∃ r : ℝ, a = (r : EReal)) :
    ∃ r : ℝ, Ideal.div a (y : EReal) = (r : EReal) := by
  rw [Ideal.div_coe hy]
  exact real_mul ha ⟨_, rfl⟩

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-! ### The two identities, over the reals -/

/-- Folding the output matrix into the effective weight first, or applying it last, is the same. -/
theorem mod_core {ι κ : Type*} [Fintype ι] [Fintype κ] (p : ι → ℝ) (E : ι → κ → ℝ) (o : κ → ℝ) :
    ∑ h, (p h : EReal) * ∑ e, (E h e : EReal) * (o e : EReal)
      = ∑ e, (∑ h, (p h : EReal) * (E h e : EReal)) * (o e : EReal) := by
  simp only [← EReal.coe_mul, ← coe_sum]
  congr 1
  simp only [Finset.mul_sum, Finset.sum_mul]
  rw [Finset.sum_comm]
  refine Finset.sum_congr rfl fun e _ => Finset.sum_congr rfl fun h _ => ?_
  ring

/-- Averaging the features and then applying the effective weight, or applying it and then averaging. -/
theorem state_core {τ ι : Type*} [Fintype τ] [Fintype ι] (p : τ → ι → ℝ) (E : ι → ℝ) (c : ℝ) :
    ∑ i, ((0 + ∑ t, (p t i : EReal)) * (c : EReal)) * (E i : EReal)
      = (0 + ∑ t, ∑ i, (p t i : EReal) * (E i : EReal)) * (c : EReal) := by
  simp only [zero_add, ← EReal.coe_mul, ← coe_sum]
  congr 1
  simp only [Finset.mul_sum, Finset.sum_mul]
  rw [Finset.sum_comm]
  refine Finset.sum_congr rfl fun t _ => Finset.sum_congr rfl fun i _ => ?_
  ring

section
variable (x : Fin 8 → Fin 4096 → Fin 2048 → EReal) (wa wb : Fin 24 → Fin 2048 → EReal)
  (wpl tr : Fin 24 → Fin 24 → EReal) (wout : Fin 2048 → Fin 24 → EReal)

/-- The feature-major projection is the projection with the factors of each product exchanged. -/
theorem projT_eq (w : Fin 24 → Fin 2048 → EReal) (b : Fin 8) (h : Fin 24) (t : Fin 4096) :
    projT x w b h t = proj x w b t h := by
  unfold projT proj
  exact Finset.sum_congr rfl fun d _ => mul_comm _ _

/-- Four blocks of 1024 tokens, summed in order from zero, are the whole sequence summed from zero (no finiteness
    needed: addition of extended reals is commutative and associative). -/
theorem sumK_eq_sumR (w : Fin 24 → Fin 2048 → EReal) : sumK x w = sumR x w := by
  funext b h
  unfold sumK sumR blockSum
  rw [sum_blocks (fun t => proj x w b t h), Fin.sum_univ_four]
  simp only [projT_eq, add_assoc]

/-- Hence the two arrangements form the same effective weight. -/
theorem effK_eq_effR : effK x wa wb wpl tr = effR x wa wb wpl tr := by
  unfold effK effR
  rw [sumK_eq_sumR, sumK_eq_sumR]

variable (hx : ∀ b t d, ∃ r : ℝ, x b t d = (r : EReal)) (hwa : ∀ h d, ∃ r : ℝ, wa h d = (r : EReal))
  (hwb : ∀ h d, ∃ r : ℝ, wb h d = (r : EReal)) (hwpl : ∀ i j, ∃ r : ℝ, wpl i j = (r : EReal))
  (htr : ∀ i j, ∃ r : ℝ, tr i j = (r : EReal)) (hwout : ∀ d e, ∃ r : ℝ, wout d e = (r : EReal))

include hx in
/-- A projected feature of real tokens against real weights is real. -/
theorem proj_real (w : Fin 24 → Fin 2048 → EReal) (hw : ∀ h d, ∃ r : ℝ, w h d = (r : EReal)) (b : Fin 8)
    (t : Fin 4096) (h : Fin 24) : ∃ r : ℝ, proj x w b t h = (r : EReal) := by
  unfold proj
  exact real_sum _ _ fun d _ => real_mul (hx b t d) (hw h d)

include hx in
/-- The mean of a feature over the sequence is real. -/
theorem mean_real (w : Fin 24 → Fin 2048 → EReal) (hw : ∀ h d, ∃ r : ℝ, w h d = (r : EReal)) (b : Fin 8)
    (h : Fin 24) : ∃ r : ℝ, meanOf Q4 (sumR x w) b h = (r : EReal) := by
  unfold meanOf sumR
  rw [Q4_eq]
  exact real_div_coe (by norm_num) (real_add real_zero (real_sum _ _ fun t _ => proj_real x hx w hw b t h))

include hx hwa hwb hwpl htr in
/-- The effective weight is real. -/
theorem effR_real (i j : Fin 24) : ∃ r : ℝ, effR x wa wb wpl tr i j = (r : EReal) := by
  unfold effR effW
  rw [Q8_eq]
  exact real_add (hwpl i j) (real_add (real_mul (htr i j) CD_real)
    (real_mul (real_div_coe (by norm_num) (real_sum _ _ fun b _ =>
      real_mul (mean_real x hx wa hwa b i) (mean_real x hx wb hwb b j))) CL_real))

include hx hwa hwb hwpl htr hwout in
/-- On real inputs the modulation is the same in both arrangements. -/
theorem modOut_eq : modOutK x wa wb wpl tr wout = modOutR x wa wb wpl tr wout := by
  have hp := proj_real x hx wa hwa
  have hE := effR_real x wa wb wpl tr hx hwa hwb hwpl htr
  choose p' hp' using hp
  choose E' hE' using hE
  choose o' ho' using hwout
  funext b t d
  unfold modOutK modOutR modK modR combined plastic
  rw [effK_eq_effR]
  simp only [projT_eq, hp', hE', ho']
  exact mod_core (fun h => p' b t h) (fun h e => E' h e) (fun e => o' d e)

include hx hwa hwb hwpl htr hwout in
/-- On real inputs the state is the same in both arrangements. -/
theorem stateOut_eq : stateOutK x wa wb wpl tr = stateOutR x wa wb wpl tr := by
  have hp := proj_real x hx wa hwa
  have hE := effR_real x wa wb wpl tr hx hwa hwb hwpl htr
  choose p' hp' using hp
  choose E' hE' using hE
  funext b e
  unfold stateOutK stateOutR stateK stateR meanOf plastic
  rw [effK_eq_effR, sumK_eq_sumR]
  unfold sumR
  rw [Q4_eq]
  simp only [Ideal.div_coe (show (4096 : ℝ) ≠ 0 by norm_num), hp', hE']
  exact state_core (fun t i => p' b t i) (fun i => E' i e) (1 / 4096)

end

end Cert.Hebb

end
-- ==== Proof.LibFiniteEntry.lean ====
/-
  General facts about the printed test "every entry of a float array has absolute value below +∞", read at the ideal
  values, where a float is an extended real.

  * The f32 pattern 0x7F800000 denotes +∞.
  * An extended real whose absolute value max(x, -x) is below +∞ is neither infinity, hence a real number.
  * A strict comparison of extended reals that came out true is the strict inequality.
  * So one entry of the printed test `|a| < +∞` (the array's absolute value compared, entry by entry, with the
    broadcast +∞ pattern) that came out true says that entry of `a` is a real number — at any shape.
-/
import Idealize.ShloMosaic.PureOps.Ideal.Laws
import Idealize.ShloMosaic.Lib.ValueIdx

noncomputable section

namespace Cert.LibFiniteEntry

open Idealize.ShloMosaic

/-- The f32 pattern of +∞ denotes +∞. -/
theorem ofBits_inf_f32 : Ideal.ofBits .f32 0x7F800000#32 = ⊤ := by
  simp [Ideal.ofBits, Ideal.ieee]

/-- An extended real whose absolute value is below +∞ is a real. -/
theorem real_of_abs_lt_top (x : EReal) (h : max x (-x) < ⊤) : ∃ r : ℝ, x = (r : EReal) := by
  have hb : x ≠ ⊥ := by
    rintro rfl
    rw [EReal.neg_bot, max_eq_right bot_le] at h
    exact lt_irrefl _ h
  have ht : x ≠ ⊤ := by
    rintro rfl
    rw [EReal.neg_top, max_eq_left bot_le] at h
    exact lt_irrefl _ h
  exact ⟨x.toReal, (EReal.coe_toReal ht hb).symm⟩

/-- A strict comparison of extended reals that came out true. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- One entry of the printed test `|a| < +∞` that came out true: that entry of `a` is a real. -/
theorem real_of_finite_test {s : Shape} (a : FVec Ideal s .f32) (hb : (⟨0, ![]⟩ : Shape).BroadcastsInDim s ![]) (j : s.Idx)
    (h : cmpf .olt (Host.absf a) (broadcastInDim s ![] hb (constant (F := Ideal) ⟨0, ![]⟩ .f32 0x7F800000#32)) j = 1#1) :
    ∃ r : ℝ, a j = (r : EReal) := by
  have hlt : max (a j) (-(a j)) < Ideal.ofBits .f32 0x7F800000#32 := lt_of_cmp_olt h
  rw [ofBits_inf_f32] at hlt
  exact real_of_abs_lt_top _ hlt

end Cert.LibFiniteEntry

end
-- ==== Proof.Finite.lean ====
/-
  The precondition read: when the printed test "every input has absolute value below +∞" comes out true, every entry of
  every input is a real number.
-/
import proofs.«113000_j17282948399130_2_alg».proof.Pre_finite_inputs
import proofs.«113000_j17282948399130_2_alg».proof.Proof.Gen.Pre_finite_inputs
import proofs.«113000_j17282948399130_2_alg».proof.Proof.LibFiniteEntry
import Idealize.ShloMosaic.Lib.ReduceAll
import Idealize.ShloMosaic.PureOps.Ideal.Laws

noncomputable section

namespace Cert.Pre_finite_inputs.Finite

open Cert.Pre_finite_inputs Idealize.ShloMosaic

variable [Cert.Pre_finite_inputs.Facts]

/-- The scalar shape has one index. -/
instance : Subsingleton S_.Idx := ⟨fun a b => funext fun d => d.elim0⟩

/-- A conjunction of two one-bit tests that came out true: both did. -/
theorem both_of_and {x y : IVec S_ 1} (j : S_.Idx) (h : andi x y j = 1#1) : x j = 1#1 ∧ y j = 1#1 :=
  IntOp.andi_eq_one.1 h

/-- One input's test: the conjunction over all entries of "the absolute value is below +∞" came out true, so every
    entry is a real number. -/
theorem reals_of_all {s : Shape} {axes : List (Fin s.rank)} (a : FVec Ideal s .f32) (hb : S_.BroadcastsInDim s ![])
    (hr : s.ReducesTo axes S_) (hu : 0 < S_.numel) (j : S_.Idx)
    (h : Host.reduce IntOp.andi (cmpf .olt (Host.absf a) (broadcastInDim s ![] hb (constant (F := Ideal) S_ .f32 0x7F800000#32)))
      (constantI S_ 1 1#1) hr hu j = 1#1) :
    ∀ i, ∃ r : ℝ, a i = (r : EReal) :=
  fun i => Cert.LibFiniteEntry.real_of_finite_test a hb i (Host.reduce_andi_all _ _ hr hu j h i)

/-- If the printed test is all ones, every entry of each of the six inputs is a real number. -/
theorem reals_of_fn (a0 : FVec Ideal S8x4096x2048 .f32) (a1 a2 : FVec Ideal S24x2048 .f32) (a3 : FVec Ideal S24x24 .f32)
    (a4 : FVec Ideal S2048x24 .f32) (a5 : FVec Ideal S24x24 .f32)
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [fn, fn_part1] at h0
  obtain ⟨h0, e5⟩ := both_of_and _ h0
  obtain ⟨h0, e4⟩ := both_of_and _ h0
  obtain ⟨h0, e3⟩ := both_of_and _ h0
  obtain ⟨h0, e2⟩ := both_of_and _ h0
  obtain ⟨e0, e1⟩ := both_of_and _ h0
  exact ⟨reals_of_all a0 _ _ _ _ e0, reals_of_all a1 _ _ _ _ e1, reals_of_all a2 _ _ _ _ e2, reals_of_all a3 _ _ _ _ e3,
    reals_of_all a4 _ _ _ _ e4, reals_of_all a5 _ _ _ _ e5⟩

end Cert.Pre_finite_inputs.Finite

end
-- ==== Proof.lean ====
/-
  The Hebbian plasticity layer: a two-launch kernel against its plain reference, equal over the extended reals.

  The kernel sums the projected features block by block in a first launch, forms the effective weight and folds it
  with the output matrix on the host, and multiplies the stored projections by the folded weight in a second launch;
  the state comes from the averaged features.  The reference projects, averages, forms the same effective weight,
  applies it to every projected token, averages those for the state, and applies the output matrix last.  On real
  inputs the two agree: sums of extended reals regroup freely, and on reals the products distribute over the sums.
  The three frames are the generated ones (the reference's is its generated run with the results dropped); the ideal
  pass rewrote nothing, so the kernel is its own idealization.
-/
import proofs.«113000_j17282948399130_2_alg».proof.Defs
import proofs.«113000_j17282948399130_2_alg».proof.Proof.Gen.Kernel
import proofs.«113000_j17282948399130_2_alg».proof.Proof.Gen.Kernel.Skeleton
import proofs.«113000_j17282948399130_2_alg».proof.Proof.Gen.Kernel.Launch
import proofs.«113000_j17282948399130_2_alg».proof.Proof.Gen.Kernel.Points
import proofs.«113000_j17282948399130_2_alg».proof.Proof.Gen.Kernel.Frame
import proofs.«113000_j17282948399130_2_alg».proof.Proof.Gen.KernelIdeal
import proofs.«113000_j17282948399130_2_alg».proof.Proof.Gen.KernelIdeal.Skeleton
import proofs.«113000_j17282948399130_2_alg».proof.Proof.Gen.KernelIdeal.Launch
import proofs.«113000_j17282948399130_2_alg».proof.Proof.Gen.KernelIdeal.Points
import proofs.«113000_j17282948399130_2_alg».proof.Proof.Gen.KernelIdeal.Frame
import proofs.«113000_j17282948399130_2_alg».proof.Proof.Gen.ReferenceIdeal
import proofs.«113000_j17282948399130_2_alg».proof.Proof.Gen.Pre_finite_inputs
import proofs.«113000_j17282948399130_2_alg».proof.Proof.Gen.ReferenceIdeal.Run
import proofs.«113000_j17282948399130_2_alg».proof.Proof.Gen.ReferenceIdeal.Read
import proofs.«113000_j17282948399130_2_alg».proof.Proof.KernelValue
import proofs.«113000_j17282948399130_2_alg».proof.Proof.RefValue
import proofs.«113000_j17282948399130_2_alg».proof.Proof.HebbLaw
import proofs.«113000_j17282948399130_2_alg».proof.Proof.Finite
import Idealize.ShloMosaic.Adequacy
import Idealize.ShloMosaic.Init

noncomputable section

namespace Cert.Proof

open Idealize.ShloMosaic Idealize.ShloMosaic.TcCoe Idealize.ShloMosaic.ValueIdx Idealize.SL.Sem Cert.Hebb

section Claims
variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- Each of the six arguments, by coordinates, is real under the precondition. -/
theorem real3 {n0 n1 n2 : Nat} (X : (⟨3, ![n0, n1, n2]⟩ : Shape).Idx → EReal) (h : ∀ i, ∃ r : ℝ, X i = (r : EReal)) (a : Fin n0)
    (b : Fin n1) (c : Fin n2) : ∃ r : ℝ, c3 X a b c = (r : EReal) := h _
theorem real2 {n0 n1 : Nat} (X : (⟨2, ![n0, n1]⟩ : Shape).Idx → EReal) (h : ∀ i, ∃ r : ℝ, X i = (r : EReal)) (a : Fin n0)
    (b : Fin n1) : ∃ r : ℝ, c2 X a b = (r : EReal) := h _

/-- Run from memories agreeing on the arguments, the two idealized programs end with the same modulation and the same
    state: the kernel's are the blocked arrangement of its arguments, the reference's the whole-sequence arrangement,
    and on the real inputs the precondition grants these are one function. -/
theorem algebraic : Cert.algebraic_KernelIdeal_ReferenceIdeal := by
  intro m ρ m' ρ' hpre hagree
  refine ⟨fun c => fun i => modOutK (Cert.KernelIdeal.KValue.X m c) (Cert.KernelIdeal.KValue.Wa m c) (Cert.KernelIdeal.KValue.Wb m c)
      (Cert.KernelIdeal.KValue.Wpl m c) (Cert.KernelIdeal.KValue.Tr m c) (Cert.KernelIdeal.KValue.Wout m c) (i 0) (i 1) (i 2),
    fun c => fun i => stateOutK (Cert.KernelIdeal.KValue.X m c) (Cert.KernelIdeal.KValue.Wa m c) (Cert.KernelIdeal.KValue.Wb m c)
      (Cert.KernelIdeal.KValue.Wpl m c) (Cert.KernelIdeal.KValue.Tr m c) (i 0) (i 1), ?_, ?_⟩
  · exact (θ_run Cert.KernelIdeal.defs _ _).mono
      (fun _ h c => ⟨(h c).1.trans (Cert.KernelIdeal.KValue.mod_eq m ρ c), (h c).2.1.trans (Cert.KernelIdeal.KValue.state_eq m ρ c), (h c).2.2⟩)
      (Cert.KernelIdeal.Named.run_named (F := Ideal) m ρ)
  · refine (θ_run Cert.ReferenceIdeal.defs _ _).mono (fun _ h c => ⟨(h c).1.trans ?_, (h c).2.1.trans ?_, (h c).2.2⟩)
      (Cert.ReferenceIdeal.Value.run (F := Ideal) m' ρ')
    all_goals
      obtain ⟨r0, r1, r2, r3, r4, r5⟩ := Cert.Pre_finite_inputs.Finite.reals_of_fn _ _ _ _ _ _ (hpre c)
      obtain ⟨a0, a1, a2, a3, a4, a5⟩ := hagree c
    · rw [Cert.ReferenceIdeal.Read.val_main_v21_eq, Cert.ReferenceIdeal.RefValue.ref_mod, a0, a1, a2, a3, a4, a5]
      exact funext fun i => congrFun (congrFun (congrFun (modOut_eq _ _ _ _ _ _ (real3 _ r0) (real2 _ r1) (real2 _ r2) (real2 _ r3)
        (real2 _ r5) (real2 _ r4)).symm (i 0)) (i 1)) (i 2)
    · rw [Cert.ReferenceIdeal.Read.val_main_v20_eq, Cert.ReferenceIdeal.RefValue.ref_state, a0, a1, a2, a3, a5]
      exact funext fun i => congrFun (congrFun (stateOut_eq _ _ _ _ _ _ (real3 _ r0) (real2 _ r1) (real2 _ r2) (real2 _ r3)
        (real2 _ r5) (real2 _ r4)).symm (i 0)) (i 1)

end Claims

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
